-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x11 : Shape := ⟨2, ![200000, 11]⟩
abbrev S2x6400000 : Shape := ⟨2, ![2, 6400000]⟩
abbrev S11x11 : Shape := ⟨2, ![11, 11]⟩
abbrev S11 : Shape := ⟨1, ![11]⟩
abbrev S11x16 : Shape := ⟨2, ![11, 16]⟩
abbrev S16 : Shape := ⟨1, ![16]⟩
abbrev S_ : Shape := ⟨0, ![]⟩

class Facts : Prop where
  bcast_S_S200000x11 : S_.BroadcastsInDim S200000x11 (![] : Fin 0 → Fin S200000x11.rank)
  reducesTo_S200000x11_S_d0_1 : S200000x11.ReducesTo [0, 1] S_
  h_S_ : 0 < S_.numel
  bcast_S_S11x11 : S_.BroadcastsInDim S11x11 (![] : Fin 0 → Fin S11x11.rank)
  reducesTo_S11x11_S_d0_1 : S11x11.ReducesTo [0, 1] S_
  bcast_S_S11 : S_.BroadcastsInDim S11 (![] : Fin 0 → Fin S11.rank)
  reducesTo_S11_S_d0 : S11.ReducesTo [0] S_
  bcast_S_S11x16 : S_.BroadcastsInDim S11x16 (![] : Fin 0 → Fin S11x16.rank)
  reducesTo_S11x16_S_d0_1 : S11x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S11 .f32) (main_arg6 : FVec F S11x16 .f32) (main_arg7 : FVec F S16 .f32) (main_v13 : IVec S_ 1) (main_v16 : IVec S11x11 1) : IVec S_ 1 :=
  let main_c_5 : IVec S_ 1 := constantI S_ 1 1#1
  let main_v17 : IVec S_ 1 := (fun x v => Host.reduce IntOp.andi x v reducesTo_S11x11_S_d0_1 h_S_) main_v16 main_c_5
  let main_v18 : IVec S_ 1 := andi main_v13 main_v17
  let main_v19 : FVec F S11 .f32 := Host.absf main_arg5
  let main_cst_6 : FVec F S_ .f32 := constant S_ .f32 0x7F800000#32
  let main_v20 : FVec F S11 .f32 := broadcastInDim S11 ![] bcast_S_S11 main_cst_6
  let main_v21 : IVec S11 1 := cmpf .olt main_v19 main_v20
  let main_c_7 : IVec S_ 1 := constantI S_ 1 1#1
  let main_v22 : IVec S_ 1 := (fun x v => Host.reduce IntOp.andi x v reducesTo_S11_S_d0 h_S_) main_v21 main_c_7
  let main_v23 : IVec S_ 1 := andi main_v18 main_v22
  let main_v24 : FVec F S11x16 .f32 := Host.absf main_arg6
  let main_cst_8 : FVec F S_ .f32 := constant S_ .f32 0x7F800000#32
  let main_v25 : FVec F S11x16 .f32 := broadcastInDim S11x16 ![] bcast_S_S11x16 main_cst_8
  let main_v26 : IVec S11x16 1 := cmpf .olt main_v24 main_v25
  let main_c_9 : IVec S_ 1 := constantI S_ 1 1#1
  let main_v27 : IVec S_ 1 := (fun x v => Host.reduce IntOp.andi x v reducesTo_S11x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S200000x11 .f32) (main_arg1 : IVec S2x6400000 32) (main_arg2 : FVec F S11x11 .f32) (main_arg3 : FVec F S11 .f32) (main_arg4 : FVec F S11x11 .f32) (main_arg5 : FVec F S11 .f32) (main_arg6 : FVec F S11x16 .f32) (main_arg7 : FVec F S16 .f32) : IVec S_ 1 :=
  let main_v0 : FVec F S200000x11 .f32 := Host.absf main_arg0
  let main_cst : FVec F S_ .f32 := constant S_ .f32 0x7F800000#32
  let main_v1 : FVec F S200000x11 .f32 := broadcastInDim S200000x11 ![] bcast_S_S200000x11 main_cst
  let main_v2 : IVec S200000x11 1 := cmpf .olt main_v0 main_v1
  let main_c : IVec S_ 1 := constantI S_ 1 1#1
  let main_v3 : IVec S_ 1 := (fun x v => Host.reduce IntOp.andi x v reducesTo_S200000x11_S_d0_1 h_S_) main_v2 main_c
  let main_v4 : FVec F S11x11 .f32 := Host.absf main_arg2
  let main_cst_0 : FVec F S_ .f32 := constant S_ .f32 0x7F800000#32
  let main_v5 : FVec F S11x11 .f32 := broadcastInDim S11x11 ![] bcast_S_S11x11 main_cst_0
  let main_v6 : IVec S11x11 1 := cmpf .olt main_v4 main_v5
  let main_c_1 : IVec S_ 1 := constantI S_ 1 1#1
  let main_v7 : IVec S_ 1 := (fun x v => Host.reduce IntOp.andi x v reducesTo_S11x11_S_d0_1 h_S_) main_v6 main_c_1
  let main_v8 : IVec S_ 1 := andi main_v3 main_v7
  let main_v9 : FVec F S11 .f32 := Host.absf main_arg3
  let main_cst_2 : FVec F S_ .f32 := constant S_ .f32 0x7F800000#32
  let main_v10 : FVec F S11 .f32 := broadcastInDim S11 ![] bcast_S_S11 main_cst_2
  let main_v11 : IVec S11 1 := cmpf .olt main_v9 main_v10
  let main_c_3 : IVec S_ 1 := constantI S_ 1 1#1
  let main_v12 : IVec S_ 1 := (fun x v => Host.reduce IntOp.andi x v reducesTo_S11_S_d0 h_S_) main_v11 main_c_3
  let main_v13 : IVec S_ 1 := andi main_v8 main_v12
  let main_v14 : FVec F S11x11 .f32 := Host.absf main_arg4
  let main_cst_4 : FVec F S_ .f32 := constant S_ .f32 0x7F800000#32
  let main_v15 : FVec F S11x11 .f32 := broadcastInDim S11x11 ![] bcast_S_S11x11 main_cst_4
  let main_v16 : IVec S11x11 1 := cmpf .olt main_v14 main_v15
  fn_part1 (F := F) main_arg5 main_arg6 main_arg7 main_v13 main_v16
-- ==== Kernel.lean ====
abbrev S200000x11 : Shape := ⟨2, ![200000, 11]⟩
abbrev S2x6400000 : Shape := ⟨2, ![2, 6400000]⟩
abbrev S11x11 : Shape := ⟨2, ![11, 11]⟩
abbrev S11 : Shape := ⟨1, ![11]⟩
abbrev S11x16 : Shape := ⟨2, ![11, 16]⟩
abbrev S16 : Shape := ⟨1, ![16]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S2000x11 : Shape := ⟨2, ![2000, 11]⟩
abbrev S6400000x11 : Shape := ⟨2, ![6400000, 11]⟩
abbrev S200000x1 : Shape := ⟨2, ![200000, 1]⟩
abbrev S1x11 : Shape := ⟨2, ![1, 11]⟩
abbrev S200000x16 : Shape := ⟨2, ![200000, 16]⟩
abbrev S2000x16 : Shape := ⟨2, ![2000, 16]⟩
abbrev S6400000x16 : Shape := ⟨2, ![6400000, 16]⟩
abbrev S1x16 : Shape := ⟨2, ![1, 16]⟩

abbrev nBuf : Space → Nat
  | .hbm => 160
  | .vmem => 15
  | .smem => 0
  | _ => 0

abbrev hbmTy0_0 (i : Nat) : BufTy := match i % 128 with
  | 0 => ⟨S200000x11, .f32⟩
  | 1 => ⟨S2x6400000, .i32⟩
  | 2 => ⟨S11x11, .f32⟩
  | 3 => ⟨S11, .f32⟩
  | 4 => ⟨S11x11, .f32⟩
  | 5 => ⟨S11, .f32⟩
  | 6 => ⟨S11x16, .f32⟩
  | 7 => ⟨S16, .f32⟩
  | 8 => ⟨S1x6400000, .i32⟩
  | 9 => ⟨S6400000, .i32⟩
  | 10 => ⟨S1x6400000, .i32⟩
  | 11 => ⟨S6400000, .i32⟩
  | 12 => ⟨S_, .f32⟩
  | 13 => ⟨S6400000, .f32⟩
  | 14 => ⟨S_, .f32⟩
  | 15 => ⟨S200000, .f32⟩
  | 16 => ⟨S6400000x1, .i32⟩
  | 17 => ⟨S200000, .f32⟩
  | 18 => ⟨S_, .f32⟩
  | 19 => ⟨S200000, .f32⟩
  | 20 => ⟨S200000, .f32⟩
  | 21 => ⟨S200000, .f32⟩
  | 22 => ⟨S200000x11, .f32⟩
  | 23 => ⟨S_, .i32⟩
  | 24 => ⟨S6400000, .i32⟩
  | 25 => ⟨S6400000, .i1⟩
  | 26 => ⟨S_, .i32⟩
  | 27 => ⟨S6400000, .i32⟩
  | 28 => ⟨S6400000, .i32⟩
  | 29 => ⟨S6400000, .i32⟩
  | 30 => ⟨S6400000x1, .i32⟩
  | 31 => ⟨S6400000, .f32⟩
  | 32 => ⟨S_, .i32⟩
  | 33 => ⟨S6400000, .i32⟩
  | 34 => ⟨S6400000, .i1⟩
  | 35 => ⟨S_, .i32⟩
  | 36 => ⟨S6400000, .i32⟩
  | 37 => ⟨S6400000, .i32⟩
  | 38 => ⟨S6400000, .i32⟩
  | 39 => ⟨S6400000x1, .i32⟩
  | 40 => ⟨S6400000, .f32⟩
  | 41 => ⟨S6400000, .f32⟩
  | 42 => ⟨S6400000x1, .f32⟩
  | 43 => ⟨S_, .i32⟩
  | 44 => ⟨S6400000, .i32⟩
  | 45 => ⟨S6400000, .i1⟩
  | 46 => ⟨S_, .i32⟩
  | 47 => ⟨S6400000, .i32⟩
  | 48 => ⟨S6400000, .i32⟩
  | 49 => ⟨S6400000, .i32⟩
  | 50 => ⟨S6400000x1, .i32⟩
  | 51 => ⟨S6400000x11, .f32⟩
  | 52 => ⟨S6400000x11, .f32⟩
  | 53 => ⟨S6400000x11, .f32⟩
  | 54 => ⟨S_, .f32⟩
  | 55 => ⟨S200000x11, .f32⟩
  | 56 => ⟨S6400000x1, .i32⟩
  | 57 => ⟨S200000x11, .f32⟩
  | 58 => ⟨S200000, .f32⟩
  | 59 => ⟨S200000x1, .f32⟩
  | 60 => ⟨S200000x11, .f32⟩
  | 61 => ⟨S200000x11, .f32⟩
  | 62 => ⟨S200000x11, .f32⟩
  | 63 => ⟨S1x11, .f32⟩
  | 64 => ⟨S200000x11, .f32⟩
  | 65 => ⟨S200000x11, .f32⟩
  | 66 => ⟨S_, .f32⟩
  | 67 => ⟨S200000x11, .f32⟩
  | 68 => ⟨S200000x11, .f32⟩
  | 69 => ⟨S200000x11, .f32⟩
  | 70 => ⟨S_, .i32⟩
  | 71 => ⟨S6400000, .i32⟩
  | 72 => ⟨S6400000, .i1⟩
  | 73 => ⟨S_, .i32⟩
  | 74 => ⟨S6400000, .i32⟩
  | 75 => ⟨S6400000, .i32⟩
  | 76 => ⟨S6400000, .i32⟩
  | 77 => ⟨S6400000x1, .i32⟩
  | 78 => ⟨S6400000, .f32⟩
  | 79 => ⟨S_, .i32⟩
  | 80 => ⟨S6400000, .i32⟩
  | 81 => ⟨S6400000, .i1⟩
  | 82 => ⟨S_, .i32⟩
  | 83 => ⟨S6400000, .i32⟩
  | 84 => ⟨S6400000, .i32⟩
  | 85 => ⟨S6400000, .i32⟩
  | 86 => ⟨S6400000x1, .i32⟩
  | 87 => ⟨S6400000, .f32⟩
  | 88 => ⟨S6400000, .f32⟩
  | 89 => ⟨S6400000x1, .f32⟩
  | 90 => ⟨S_, .i32⟩
  | 91 => ⟨S6400000, .i32⟩
  | 92 => ⟨S6400000, .i1⟩
  | 93 => ⟨S_, .i32⟩
  | 94 => ⟨S6400000, .i32⟩
  | 95 => ⟨S6400000, .i32⟩
  | 96 => ⟨S6400000, .i32⟩
  | 97 => ⟨S6400000x1, .i32⟩
  | 98 => ⟨S6400000x11, .f32⟩
  | 99 => ⟨S6400000x11, .f32⟩
  | 100 => ⟨S6400000x11, .f32⟩
  | 101 => ⟨S_, .f32⟩
  | 102 => ⟨S200000x11, .f32⟩
  | 103 => ⟨S6400000x1, .i32⟩
  | 104 => ⟨S200000x11, .f32⟩
  | 105 => ⟨S200000, .f32⟩
  | 106 => ⟨S200000x1, .f32⟩
  | 107 => ⟨S200000x11, .f32⟩
  | 108 => ⟨S200000x11, .f32⟩
  | 109 => ⟨S200000x11, .f32⟩
  | 110 => ⟨S1x11, .f32⟩
  | 111 => ⟨S200000x11, .f32⟩
  | 112 => ⟨S200000x11, .f32⟩
  | 113 => ⟨S_, .f32⟩
  | 114 => ⟨S200000x11, .f32⟩
  | 115 => ⟨S200000x11, .f32⟩
  | 116 => ⟨S200000x16, .f32⟩
  | 117 => ⟨S_, .i32⟩
  | 118 => ⟨S6400000, .i32⟩
  | 119 => ⟨S6400000, .i1⟩
  | 120 => ⟨S_, .i32⟩
  | 121 => ⟨S6400000, .i32⟩
  | 122 => ⟨S6400000, .i32⟩
  | 123 => ⟨S6400000, .i32⟩
  | 124 => ⟨S6400000x1, .i32⟩
  | 125 => ⟨S6400000, .f32⟩
  | 126 => ⟨S_, .i32⟩
  | 127 => ⟨S6400000, .i32⟩
  | _ => ⟨S200000x11, .f32⟩

abbrev hbmTy0_1 (i : Nat) : BufTy := match i % 128 with
  | 0 => ⟨S6400000, .i1⟩
  | 1 => ⟨S_, .i32⟩
  | 2 => ⟨S6400000, .i32⟩
  | 3 => ⟨S6400000, .i32⟩
  | 4 => ⟨S6400000, .i32⟩
  | 5 => ⟨S6400000x1, .i32⟩
  | 6 => ⟨S6400000, .f32⟩
  | 7 => ⟨S6400000, .f32⟩
  | 8 => ⟨S6400000x1, .f32⟩
  | 9 => ⟨S_, .i32⟩
  | 10 => ⟨S6400000, .i32⟩
  | 11 => ⟨S6400000, .i1⟩
  | 12 => ⟨S_, .i32⟩
  | 13 => ⟨S6400000, .i32⟩
  | 14 => ⟨S6400000, .i32⟩
  | 15 => ⟨S6400000, .i32⟩
  | 16 => ⟨S6400000x1, .i32⟩
  | 17 => ⟨S6400000x16, .f32⟩
  | 18 => ⟨S6400000x16, .f32⟩
  | 19 => ⟨S6400000x16, .f32⟩
  | 20 => ⟨S_, .f32⟩
  | 21 => ⟨S200000x16, .f32⟩
  | 22 => ⟨S6400000x1, .i32⟩
  | 23 => ⟨S200000x16, .f32⟩
  | 24 => ⟨S200000, .f32⟩
  | 25 => ⟨S200000x1, .f32⟩
  | 26 => ⟨S200000x16, .f32⟩
  | 27 => ⟨S200000x16, .f32⟩
  | 28 => ⟨S200000x16, .f32⟩
  | 29 => ⟨S1x16, .f32⟩
  | 30 => ⟨S200000x16, .f32⟩
  | 31 => ⟨S200000x16, .f32⟩
  | _ => ⟨S200000x11, .f32⟩

abbrev hbmTy (i : Nat) : BufTy := match i / 128 with
  | 0 => hbmTy0_0 i
  | 1 => hbmTy0_1 i
  | _ => ⟨S200000x11, .f32⟩

abbrev bufTy : (tb : Table) → Fin (tcTables nBuf tb) → BufTy
  | .hbm, ⟨i, _⟩ => hbmTy i
  | .local _ .vmem, ⟨0, _⟩ => ⟨S2000x11, .f32⟩
  | .local _ .vmem, ⟨1, _⟩ => ⟨S2000x11, .f32⟩
  | .local _ .vmem, ⟨2, _⟩ => ⟨S11x11, .f32⟩
  | .local _ .vmem, ⟨3, _⟩ => ⟨S2000x11, .f32⟩
  | .local _ .vmem, ⟨4, _⟩ => ⟨S2000x11, .f32⟩
  | .local _ .vmem, ⟨5, _⟩ => ⟨S2000x11, .f32⟩
  | .local _ .vmem, ⟨6, _⟩ => ⟨S2000x11, .f32⟩
  | .local _ .vmem, ⟨7, _⟩ => ⟨S11x11, .f32⟩
  | .local _ .vmem, ⟨8, _⟩ => ⟨S2000x11, .f32⟩
  | .local _ .vmem, ⟨9, _⟩ => ⟨S2000x11, .f32⟩
  | .local _ .vmem, ⟨10, _⟩ => ⟨S2000x11, .f32⟩
  | .local _ .vmem, ⟨11, _⟩ => ⟨S2000x11, .f32⟩
  | .local _ .vmem, ⟨12, _⟩ => ⟨S11x16, .f32⟩
  | .local _ .vmem, ⟨13, _⟩ => ⟨S2000x16, .f32⟩
  | .local _ .vmem, ⟨14, _⟩ => ⟨S2000x16, .f32⟩
  | _, _ => ⟨S200000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_17 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_19 : Ref sig .tc := ⟨.hbm, 137, rfl⟩
abbrev main_v104 : Ref sig .tc := ⟨.hbm, 138, rfl⟩
abbrev main_v105 : Ref sig .tc := ⟨.hbm, 139, rfl⟩
abbrev main_c_20 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_21 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x11 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x11 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x11 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S11x11 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x11 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x11 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S11x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  inb_S2000x11_S2000x11_0_0 : ∀ a, (![0, 0] : Fin 2 → Nat) a + S2000x11.size a ≤ S2000x11.size a
  h_S2000x11 : 0 < S2000x11.numel
  bitsLt_bf16_f32 : FTy.bits .bf16 < FTy.bits .f32
  inb_S11x11_S11x11_0_0 : ∀ a, (![0, 0] : Fin 2 → Nat) a + S11x11.size a ≤ S11x11.size a
  h_S11x11 : 0 < S11x11.numel
  bcast_S6400000x1_S6400000x11_0_1 : S6400000x1.BroadcastsInDim S6400000x11 (![0, 1] : Fin 2 → Fin S6400000x11.rank)
  bcast_S_S200000x11 : S_.BroadcastsInDim S200000x11 (![] : Fin 0 → Fin S200000x11.rank)
  bcast_S200000_S200000x1_0 : S200000.BroadcastsInDim S200000x1 (![0] : Fin 1 → Fin S200000x1.rank)
  bcast_S200000x1_S200000x11_0_1 : S200000x1.BroadcastsInDim S200000x11 (![0, 1] : Fin 2 → Fin S200000x11.rank)
  bcast_S11_S1x11_1 : S11.BroadcastsInDim S1x11 (![1] : Fin 1 → Fin S1x11.rank)
  bcast_S1x11_S200000x11_0_1 : S1x11.BroadcastsInDim S200000x11 (![0, 1] : Fin 2 → Fin S200000x11.rank)
  shapeCasts_S2000x11_S2000x11 : S2000x11.ShapeCasts S2000x11
  inb_S11x16_S11x16_0_0 : ∀ a, (![0, 0] : Fin 2 → Nat) a + S11x16.size a ≤ S11x16.size a
  h_S11x16 : 0 < S11x16.numel
  inb_S2000x16_S2000x16_0_0 : ∀ a, (![0, 0] : Fin 2 → Nat) a + S2000x16.size a ≤ S2000x16.size a
  h_S2000x16 : 0 < S2000x16.numel
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  bcast_S200000x1_S200000x16_0_1 : S200000x1.BroadcastsInDim S200000x16 (![0, 1] : Fin 2 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  scatter_S200000_S6400000x1_S6400000_n_0_0_1_wf : ScatterDims.WF S200000 S6400000x1 S6400000 [] [0] [0] 1
  dot_S2000x11_S11x11_S2000x11_1_0_0_1_n_n_wf : DotDims.WF S2000x11 S11x11 S2000x11 [1] [0] [0] [1] [] []
  gather_S200000_S6400000x1_S6400000_n_0_n_n_0_1_1_wf : GatherDims.WF S200000 S6400000x1 S6400000 [] [0] [] [0] [] 1 ![1]
  gather_S200000x11_S6400000x1_S6400000x11_1_0_n_n_0_1_111_wf : GatherDims.WF S200000x11 S6400000x1 S6400000x11 [1] [0] [] [0] [] 1 ![1, 11]
  scatter_S200000x11_S6400000x1_S6400000x11_1_0_0_1_wf : ScatterDims.WF S200000x11 S6400000x1 S6400000x11 [1] [0] [0] 1
  dot_S2000x11_S11x16_S2000x16_1_0_0_1_n_n_wf : DotDims.WF S2000x11 S11x16 S2000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x11.size a ≤ S200000x11.size a
  hwx0_0 : ∀ i : grid0.Coords, EltTy.bits .f32 = 32 ∨ (Rect.block (s := S200000x11) S2000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x11.size a ≤ S11x11.size a
  hwx0_1 : ∀ i : grid0.Coords, EltTy.bits .f32 = 32 ∨ (Rect.block (s := S11x11) S11x11.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x11.size a ≤ S200000x11.size a
  hwx0_2 : ∀ i : grid0.Coords, EltTy.bits .f32 = 32 ∨ (Rect.block (s := S200000x11) S2000x11.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x11.size a ≤ S200000x11.size a
  hwx1_0 : ∀ i : grid1.Coords, EltTy.bits .f32 = 32 ∨ (Rect.block (s := S200000x11) S2000x11.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S11x11.size a ≤ S11x11.size a
  hwx1_1 : ∀ i : grid1.Coords, EltTy.bits .f32 = 32 ∨ (Rect.block (s := S11x11) S11x11.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x11.size a ≤ S200000x11.size a
  hwx1_2 : ∀ i : grid1.Coords, EltTy.bits .f32 = 32 ∨ (Rect.block (s := S200000x11) S2000x11.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x11.size a ≤ S200000x11.size a
  hwx2_0 : ∀ i : grid2.Coords, EltTy.bits .f32 = 32 ∨ (Rect.block (s := S200000x11) S2000x11.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S11x16.size a ≤ S11x16.size a
  hwx2_1 : ∀ i : grid2.Coords, EltTy.bits .f32 = 32 ∨ (Rect.block (s := S11x16) S11x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S200000x16.size a
  hwx2_2 : ∀ i : grid2.Coords, EltTy.bits .f32 = 32 ∨ (Rect.block (s := S200000x16) S2000x16.size (cc2_transform_2 i) (hinb2_2 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def dot_S2000x11_S11x11_S2000x11_1_0_0_1_n_n : DotDims S2000x11 S11x11 S2000x11 where
  lhsContracting := [1]
  rhsContracting := [0]
  lhsNonContracting := [0]
  rhsNonContracting := [1]
  lhsBatch := []
  rhsBatch := []
  wf := dot_S2000x11_S11x11_S2000x11_1_0_0_1_n_n_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def gather_S200000x11_S6400000x1_S6400000x11_1_0_n_n_0_1_111 : GatherDims S200000x11 S6400000x1 S6400000x11 where
  offsetDims := [1]
  collapsedSliceDims := [0]
  operandBatchingDims := []
  startIndicesBatchingDims := []
  startIndexMap := [0]
  indexVectorDim := 1
  sliceSizes := ![1, 11]
  wf := gather_S200000x11_S6400000x1_S6400000x11_1_0_n_n_0_1_111_wf
def scatter_S200000x11_S6400000x1_S6400000x11_1_0_0_1 : ScatterDims S200000x11 S6400000x1 S6400000x11 where
  updateWindowDims := [1]
  insertedWindowDims := [0]
  scatterDimsToOperandDims := [0]
  indexVectorDim := 1
  wf := scatter_S200000x11_S6400000x1_S6400000x11_1_0_0_1_wf
def dot_S2000x11_S11x16_S2000x16_1_0_0_1_n_n : DotDims S2000x11 S11x16 S2000x16 where
  lhsContracting := [1]
  rhsContracting := [0]
  lhsNonContracting := [0]
  rhsNonContracting := [1]
  lhsBatch := []
  rhsBatch := []
  wf := dot_S2000x11_S11x16_S2000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf

abbrev win0_0 : Pipeline.Window sig grid0 :=
  Pipeline.Window.ofSpec (Memref.whole main_arg0) S2000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S11x11.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x11.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x11.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S11x11.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x11.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v86) S2000x11.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S11x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v87) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S200000x11 : Shape := ⟨2, ![200000, 11]⟩
abbrev S2x6400000 : Shape := ⟨2, ![2, 6400000]⟩
abbrev S11x11 : Shape := ⟨2, ![11, 11]⟩
abbrev S11 : Shape := ⟨1, ![11]⟩
abbrev S11x16 : Shape := ⟨2, ![11, 16]⟩
abbrev S16 : Shape := ⟨1, ![16]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S6400000x11 : Shape := ⟨2, ![6400000, 11]⟩
abbrev S200000x1 : Shape := ⟨2, ![200000, 1]⟩
abbrev S1x11 : Shape := ⟨2, ![1, 11]⟩
abbrev S200000x16 : Shape := ⟨2, ![200000, 16]⟩
abbrev S6400000x16 : Shape := ⟨2, ![6400000, 16]⟩
abbrev S1x16 : Shape := ⟨2, ![1, 16]⟩

abbrev nBuf : Space → Nat
  | .hbm => 180
  | .vmem => 0
  | .smem => 0
  | _ => 0

abbrev hbmTy0_0 (i : Nat) : BufTy := match i % 128 with
  | 0 => ⟨S200000x11, .f32⟩
  | 1 => ⟨S2x6400000, .i32⟩
  | 2 => ⟨S11x11, .f32⟩
  | 3 => ⟨S11, .f32⟩
  | 4 => ⟨S11x11, .f32⟩
  | 5 => ⟨S11, .f32⟩
  | 6 => ⟨S11x16, .f32⟩
  | 7 => ⟨S16, .f32⟩
  | 8 => ⟨S1x6400000, .i32⟩
  | 9 => ⟨S6400000, .i32⟩
  | 10 => ⟨S1x6400000, .i32⟩
  | 11 => ⟨S6400000, .i32⟩
  | 12 => ⟨S200000x11, .f32⟩
  | 13 => ⟨S_, .f32⟩
  | 14 => ⟨S6400000, .f32⟩
  | 15 => ⟨S_, .f32⟩
  | 16 => ⟨S200000, .f32⟩
  | 17 => ⟨S6400000x1, .i32⟩
  | 18 => ⟨S200000, .f32⟩
  | 19 => ⟨S_, .f32⟩
  | 20 => ⟨S200000, .f32⟩
  | 21 => ⟨S200000, .f32⟩
  | 22 => ⟨S200000, .f32⟩
  | 23 => ⟨S_, .i32⟩
  | 24 => ⟨S6400000, .i32⟩
  | 25 => ⟨S6400000, .i1⟩
  | 26 => ⟨S_, .i32⟩
  | 27 => ⟨S6400000, .i32⟩
  | 28 => ⟨S6400000, .i32⟩
  | 29 => ⟨S6400000, .i32⟩
  | 30 => ⟨S6400000x1, .i32⟩
  | 31 => ⟨S6400000, .f32⟩
  | 32 => ⟨S_, .i32⟩
  | 33 => ⟨S6400000, .i32⟩
  | 34 => ⟨S6400000, .i1⟩
  | 35 => ⟨S_, .i32⟩
  | 36 => ⟨S6400000, .i32⟩
  | 37 => ⟨S6400000, .i32⟩
  | 38 => ⟨S6400000, .i32⟩
  | 39 => ⟨S6400000x1, .i32⟩
  | 40 => ⟨S6400000, .f32⟩
  | 41 => ⟨S6400000, .f32⟩
  | 42 => ⟨S6400000x1, .f32⟩
  | 43 => ⟨S_, .i32⟩
  | 44 => ⟨S6400000, .i32⟩
  | 45 => ⟨S6400000, .i1⟩
  | 46 => ⟨S_, .i32⟩
  | 47 => ⟨S6400000, .i32⟩
  | 48 => ⟨S6400000, .i32⟩
  | 49 => ⟨S6400000, .i32⟩
  | 50 => ⟨S6400000x1, .i32⟩
  | 51 => ⟨S6400000x11, .f32⟩
  | 52 => ⟨S6400000x11, .f32⟩
  | 53 => ⟨S6400000x11, .f32⟩
  | 54 => ⟨S_, .f32⟩
  | 55 => ⟨S200000x11, .f32⟩
  | 56 => ⟨S6400000x1, .i32⟩
  | 57 => ⟨S200000x11, .f32⟩
  | 58 => ⟨S200000, .f32⟩
  | 59 => ⟨S200000x1, .f32⟩
  | 60 => ⟨S200000x11, .f32⟩
  | 61 => ⟨S200000x11, .f32⟩
  | 62 => ⟨S200000x11, .f32⟩
  | 63 => ⟨S1x11, .f32⟩
  | 64 => ⟨S200000x11, .f32⟩
  | 65 => ⟨S200000x11, .f32⟩
  | 66 => ⟨S_, .f32⟩
  | 67 => ⟨S200000x11, .f32⟩
  | 68 => ⟨S200000x11, .f32⟩
  | 69 => ⟨S200000x11, .f32⟩
  | 70 => ⟨S_, .f32⟩
  | 71 => ⟨S6400000, .f32⟩
  | 72 => ⟨S_, .f32⟩
  | 73 => ⟨S200000, .f32⟩
  | 74 => ⟨S6400000x1, .i32⟩
  | 75 => ⟨S200000, .f32⟩
  | 76 => ⟨S_, .f32⟩
  | 77 => ⟨S200000, .f32⟩
  | 78 => ⟨S200000, .f32⟩
  | 79 => ⟨S200000, .f32⟩
  | 80 => ⟨S_, .i32⟩
  | 81 => ⟨S6400000, .i32⟩
  | 82 => ⟨S6400000, .i1⟩
  | 83 => ⟨S_, .i32⟩
  | 84 => ⟨S6400000, .i32⟩
  | 85 => ⟨S6400000, .i32⟩
  | 86 => ⟨S6400000, .i32⟩
  | 87 => ⟨S6400000x1, .i32⟩
  | 88 => ⟨S6400000, .f32⟩
  | 89 => ⟨S_, .i32⟩
  | 90 => ⟨S6400000, .i32⟩
  | 91 => ⟨S6400000, .i1⟩
  | 92 => ⟨S_, .i32⟩
  | 93 => ⟨S6400000, .i32⟩
  | 94 => ⟨S6400000, .i32⟩
  | 95 => ⟨S6400000, .i32⟩
  | 96 => ⟨S6400000x1, .i32⟩
  | 97 => ⟨S6400000, .f32⟩
  | 98 => ⟨S6400000, .f32⟩
  | 99 => ⟨S6400000x1, .f32⟩
  | 100 => ⟨S_, .i32⟩
  | 101 => ⟨S6400000, .i32⟩
  | 102 => ⟨S6400000, .i1⟩
  | 103 => ⟨S_, .i32⟩
  | 104 => ⟨S6400000, .i32⟩
  | 105 => ⟨S6400000, .i32⟩
  | 106 => ⟨S6400000, .i32⟩
  | 107 => ⟨S6400000x1, .i32⟩
  | 108 => ⟨S6400000x11, .f32⟩
  | 109 => ⟨S6400000x11, .f32⟩
  | 110 => ⟨S6400000x11, .f32⟩
  | 111 => ⟨S_, .f32⟩
  | 112 => ⟨S200000x11, .f32⟩
  | 113 => ⟨S6400000x1, .i32⟩
  | 114 => ⟨S200000x11, .f32⟩
  | 115 => ⟨S200000, .f32⟩
  | 116 => ⟨S200000x1, .f32⟩
  | 117 => ⟨S200000x11, .f32⟩
  | 118 => ⟨S200000x11, .f32⟩
  | 119 => ⟨S200000x11, .f32⟩
  | 120 => ⟨S1x11, .f32⟩
  | 121 => ⟨S200000x11, .f32⟩
  | 122 => ⟨S200000x11, .f32⟩
  | 123 => ⟨S_, .f32⟩
  | 124 => ⟨S200000x11, .f32⟩
  | 125 => ⟨S200000x11, .f32⟩
  | 126 => ⟨S200000x16, .f32⟩
  | 127 => ⟨S_, .f32⟩
  | _ => ⟨S200000x11, .f32⟩

abbrev hbmTy0_1 (i : Nat) : BufTy := match i % 128 with
  | 0 => ⟨S6400000, .f32⟩
  | 1 => ⟨S_, .f32⟩
  | 2 => ⟨S200000, .f32⟩
  | 3 => ⟨S6400000x1, .i32⟩
  | 4 => ⟨S200000, .f32⟩
  | 5 => ⟨S_, .f32⟩
  | 6 => ⟨S200000, .f32⟩
  | 7 => ⟨S200000, .f32⟩
  | 8 => ⟨S200000, .f32⟩
  | 9 => ⟨S_, .i32⟩
  | 10 => ⟨S6400000, .i32⟩
  | 11 => ⟨S6400000, .i1⟩
  | 12 => ⟨S_, .i32⟩
  | 13 => ⟨S6400000, .i32⟩
  | 14 => ⟨S6400000, .i32⟩
  | 15 => ⟨S6400000, .i32⟩
  | 16 => ⟨S6400000x1, .i32⟩
  | 17 => ⟨S6400000, .f32⟩
  | 18 => ⟨S_, .i32⟩
  | 19 => ⟨S6400000, .i32⟩
  | 20 => ⟨S6400000, .i1⟩
  | 21 => ⟨S_, .i32⟩
  | 22 => ⟨S6400000, .i32⟩
  | 23 => ⟨S6400000, .i32⟩
  | 24 => ⟨S6400000, .i32⟩
  | 25 => ⟨S6400000x1, .i32⟩
  | 26 => ⟨S6400000, .f32⟩
  | 27 => ⟨S6400000, .f32⟩
  | 28 => ⟨S6400000x1, .f32⟩
  | 29 => ⟨S_, .i32⟩
  | 30 => ⟨S6400000, .i32⟩
  | 31 => ⟨S6400000, .i1⟩
  | 32 => ⟨S_, .i32⟩
  | 33 => ⟨S6400000, .i32⟩
  | 34 => ⟨S6400000, .i32⟩
  | 35 => ⟨S6400000, .i32⟩
  | 36 => ⟨S6400000x1, .i32⟩
  | 37 => ⟨S6400000x16, .f32⟩
  | 38 => ⟨S6400000x16, .f32⟩
  | 39 => ⟨S6400000x16, .f32⟩
  | 40 => ⟨S_, .f32⟩
  | 41 => ⟨S200000x16, .f32⟩
  | 42 => ⟨S6400000x1, .i32⟩
  | 43 => ⟨S200000x16, .f32⟩
  | 44 => ⟨S200000, .f32⟩
  | 45 => ⟨S200000x1, .f32⟩
  | 46 => ⟨S200000x16, .f32⟩
  | 47 => ⟨S200000x16, .f32⟩
  | 48 => ⟨S200000x16, .f32⟩
  | 49 => ⟨S1x16, .f32⟩
  | 50 => ⟨S200000x16, .f32⟩
  | 51 => ⟨S200000x16, .f32⟩
  | _ => ⟨S200000x11, .f32⟩

abbrev hbmTy (i : Nat) : BufTy := match i / 128 with
  | 0 => hbmTy0_0 i
  | 1 => hbmTy0_1 i
  | _ => ⟨S200000x11, .f32⟩

abbrev bufTy : (tb : Table) → Fin (tcTables nBuf tb) → BufTy
  | .hbm, ⟨i, _⟩ => hbmTy i
  | _, _ => ⟨S200000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_cst_19 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_20 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_21 : Ref sig .tc := ⟨.hbm, 137, rfl⟩
abbrev main_v102 : Ref sig .tc := ⟨.hbm, 138, rfl⟩
abbrev main_v103 : Ref sig .tc := ⟨.hbm, 139, rfl⟩
abbrev main_c_22 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_23 : Ref sig .tc := ⟨.hbm, 146, rfl⟩
abbrev main_v109 : Ref sig .tc := ⟨.hbm, 147, rfl⟩
abbrev main_v110 : Ref sig .tc := ⟨.hbm, 148, rfl⟩
abbrev main_c_24 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_25 : Ref sig .tc := ⟨.hbm, 157, rfl⟩
abbrev main_v118 : Ref sig .tc := ⟨.hbm, 158, rfl⟩
abbrev main_v119 : Ref sig .tc := ⟨.hbm, 159, rfl⟩
abbrev main_c_26 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_27 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S6400000x1_S6400000x11_0_1 : S6400000x1.BroadcastsInDim S6400000x11 (![0, 1] : Fin 2 → Fin S6400000x11.rank)
  bcast_S_S200000x11 : S_.BroadcastsInDim S200000x11 (![] : Fin 0 → Fin S200000x11.rank)
  bcast_S200000_S200000x1_0 : S200000.BroadcastsInDim S200000x1 (![0] : Fin 1 → Fin S200000x1.rank)
  bcast_S200000x1_S200000x11_0_1 : S200000x1.BroadcastsInDim S200000x11 (![0, 1] : Fin 2 → Fin S200000x11.rank)
  bcast_S11_S1x11_1 : S11.BroadcastsInDim S1x11 (![1] : Fin 1 → Fin S1x11.rank)
  bcast_S1x11_S200000x11_0_1 : S1x11.BroadcastsInDim S200000x11 (![0, 1] : Fin 2 → Fin S200000x11.rank)
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  bcast_S200000x1_S200000x16_0_1 : S200000x1.BroadcastsInDim S200000x16 (![0, 1] : Fin 2 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  dot_S200000x11_S11x11_S200000x11_1_0_0_1_n_n_wf : DotDims.WF S200000x11 S11x11 S200000x11 [1] [0] [0] [1] [] []
  scatter_S200000_S6400000x1_S6400000_n_0_0_1_wf : ScatterDims.WF S200000 S6400000x1 S6400000 [] [0] [0] 1
  gather_S200000_S6400000x1_S6400000_n_0_n_n_0_1_1_wf : GatherDims.WF S200000 S6400000x1 S6400000 [] [0] [] [0] [] 1 ![1]
  gather_S200000x11_S6400000x1_S6400000x11_1_0_n_n_0_1_111_wf : GatherDims.WF S200000x11 S6400000x1 S6400000x11 [1] [0] [] [0] [] 1 ![1, 11]
  scatter_S200000x11_S6400000x1_S6400000x11_1_0_0_1_wf : ScatterDims.WF S200000x11 S6400000x1 S6400000x11 [1] [0] [0] 1
  dot_S200000x11_S11x16_S200000x16_1_0_0_1_n_n_wf : DotDims.WF S200000x11 S11x16 S200000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1

variable [Facts₀]

def dot_S200000x11_S11x11_S200000x11_1_0_0_1_n_n : DotDims S200000x11 S11x11 S200000x11 where
  lhsContracting := [1]
  rhsContracting := [0]
  lhsNonContracting := [0]
  rhsNonContracting := [1]
  lhsBatch := []
  rhsBatch := []
  wf := dot_S200000x11_S11x11_S200000x11_1_0_0_1_n_n_wf
def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def gather_S200000x11_S6400000x1_S6400000x11_1_0_n_n_0_1_111 : GatherDims S200000x11 S6400000x1 S6400000x11 where
  offsetDims := [1]
  collapsedSliceDims := [0]
  operandBatchingDims := []
  startIndicesBatchingDims := []
  startIndexMap := [0]
  indexVectorDim := 1
  sliceSizes := ![1, 11]
  wf := gather_S200000x11_S6400000x1_S6400000x11_1_0_n_n_0_1_111_wf
def scatter_S200000x11_S6400000x1_S6400000x11_1_0_0_1 : ScatterDims S200000x11 S6400000x1 S6400000x11 where
  updateWindowDims := [1]
  insertedWindowDims := [0]
  scatterDimsToOperandDims := [0]
  indexVectorDim := 1
  wf := scatter_S200000x11_S6400000x1_S6400000x11_1_0_0_1_wf
def dot_S200000x11_S11x16_S200000x16_1_0_0_1_n_n : DotDims S200000x11 S11x16 S200000x16 where
  lhsContracting := [1]
  rhsContracting := [0]
  lhsNonContracting := [0]
  rhsNonContracting := [1]
  lhsBatch := []
  rhsBatch := []
  wf := dot_S200000x11_S11x16_S200000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf

class Facts : Prop extends Facts₀ where

variable [Facts]
-- ==== Proof.KernelRun.lean ====
/-
  The idealized kernel program's run with the contents of every buffer at the end, not only the arguments'.
  @main is nine segments: four stretches of host operations and three pallas_call regions between them. The frame
  certificate folds the buffer contents through the segments — `W0` the launch memory, `W1` after the first stretch,
  `W2` after region 0 (its result array at what the write-backs leave, every other buffer as entered), … `W9` after
  the last stretch — and keeps, of the last contents, only that the arguments are as launched. Here the same launch
  of the same segments is read for ALL of them: every weakly fair execution terminates, nothing faulting, and every
  buffer that outlives its region holds `W9` of it; in particular the result buffer.
-/
import proofs.«142352_j18940805775457_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates, nothing faulting, with every unscoped buffer of every core at the
    last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The run with the result buffer named: it ends at `W9` of the result buffer, the arguments as launched. -/
theorem run_result : θ_run defs (onTc (τ := τ) (main (F := F))) ⟨m, fun _ => 0, ρ⟩ (fun r => ∀ c : Dev nD,
      r.2.mem ((c.tc : Thread nD τ).loc main_v123) = W9 m ρ c (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v123 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)
    (run_all m ρ)

end Cert.KernelIdeal.Whole

end
-- ==== Proof.Spec.lean ====
/-
  The three-layer graph convolution both programs compute, as ONE function of the argument arrays and of the three
  dense products.

  From the edge list (2 × E words: row 0 the source node of each edge, row 1 its destination) come the source vector
  `srcOf e`, the destination vector `dstOf e` and, per node, the inverse square root of its degree counted with a self
  loop, `invSqrtDeg (dstOf e)` = rsqrt (1 + number of edges ending at the node). One convolution takes the dense
  product `h = x·W` of the layer's input and weight and returns, at node i and feature f,
     (Σ over the edges j → i of dv(j)·dv(i)·h(j, f))  +  dv(i)²·h(i, f)  +  b(f),
  the edge sum being a scatter-add over the destinations of the gathered rows `h(src)` scaled by the edge norm
  `dv(src)·dv(dst)` (`conv11`, `conv16`: the same text at 11 and at 16 features). The network is
     conv16 (lin₃ (relu (conv11 (lin₂ (relu (conv11 (lin₁ x W₁) b₁))) W₂) b₂)) W₃) b₃,
  stated here for ANY three dense products `lin₁ lin₂ lin₃`: the two programs differ only in how a dense product is
  computed, and everything around it is carried as this one opaque function.

  Gathers index with words that may be negative (a negative index counts from the end: `wrapIdx`); scatters take the
  destination words as they are. Nothing here is evaluated: the definitions only name the composition.
-/
import proofs.«142352_j18940805775457_1_alg».proof.KernelIdeal

noncomputable section

namespace Cert.Gcn

open Idealize.ShloMosaic Idealize.SL.Sem Cert.KernelIdeal

variable {F : FTy → Type} [FloatOps F] [Cert.KernelIdeal.Facts]
open Cert.KernelIdeal.Facts₀ Cert.KernelIdeal.Facts

/-- The source node of every edge: row 0 of the edge list, flattened. -/
def srcOf (e : (⟨S2x6400000, .i32⟩ : BufTy).Contents (Elt F)) : (⟨S6400000, .i32⟩ : BufTy).Contents (Elt F) :=
  shapeCast _ (extractStridedSlice S1x6400000 ![0, 0] e slices_S2x6400000_S1x6400000_0_0) shapeCasts_S1x6400000_S6400000

/-- The destination node of every edge: row 1 of the edge list, flattened. -/
def dstOf (e : (⟨S2x6400000, .i32⟩ : BufTy).Contents (Elt F)) : (⟨S6400000, .i32⟩ : BufTy).Contents (Elt F) :=
  shapeCast _ (extractStridedSlice S1x6400000 ![1, 0] e slices_S2x6400000_S1x6400000_1_0) shapeCasts_S1x6400000_S6400000

/-- Node words made ready for a gather, as a column: a negative word counts from the end (200000 is added). -/
def wrapIdx (v : (⟨S6400000, .i32⟩ : BufTy).Contents (Elt F)) : (⟨S6400000x1, .i32⟩ : BufTy).Contents (Elt F) :=
  broadcastInDim S6400000x1 ![0] bcast_S6400000_S6400000x1_0
    (select (cmpi .slt v (broadcastInDim S6400000 ![] bcast_S_S6400000 (constantI S_ 32 0#32)))
      (addi v (broadcastInDim S6400000 ![] bcast_S_S6400000 (constantI S_ 32 200000#32))) v)

/-- Per node, rsqrt of (1 + the number of edges that end there): ones scattered onto zeros at the destinations,
    plus one, inverse square root. -/
def invSqrtDeg (d : (⟨S6400000, .i32⟩ : BufTy).Contents (Elt F)) : (⟨S200000, .f32⟩ : BufTy).Contents (Elt F) :=
  Host.rsqrt (addf
    (Host.scatterAdd scatter_S200000_S6400000x1_S6400000_n_0_0_1
      (broadcastInDim S200000 ![] bcast_S_S200000 (constant S_ .f32 0x00000000#32))
      (broadcastInDim S6400000x1 ![0] bcast_S6400000_S6400000x1_0 d)
      (broadcastInDim S6400000 ![] bcast_S_S6400000 (constant S_ .f32 0x3F800000#32)))
    (broadcastInDim S200000 ![] bcast_S_S200000 (constant S_ .f32 0x3F800000#32)))

/-- Per edge, as a column: dv(source) · dv(destination). -/
def edgeNorm (s d : (⟨S6400000, .i32⟩ : BufTy).Contents (Elt F)) (dv : (⟨S200000, .f32⟩ : BufTy).Contents (Elt F)) :
    (⟨S6400000x1, .f32⟩ : BufTy).Contents (Elt F) :=
  broadcastInDim S6400000x1 ![0] bcast_S6400000_S6400000x1_0
    (mulf (Host.gather gather_S200000_S6400000x1_S6400000_n_0_n_n_0_1_1 dv (wrapIdx s))
      (Host.gather gather_S200000_S6400000x1_S6400000_n_0_n_n_0_1_1 dv (wrapIdx d)))

/-- One convolution at 11 features, from the dense product `h`: the edge sum, the self loop, the bias. -/
def conv11 (h : (⟨S200000x11, .f32⟩ : BufTy).Contents (Elt F)) (s d : (⟨S6400000, .i32⟩ : BufTy).Contents (Elt F))
    (dv : (⟨S200000, .f32⟩ : BufTy).Contents (Elt F)) (b : (⟨S11, .f32⟩ : BufTy).Contents (Elt F)) :
    (⟨S200000x11, .f32⟩ : BufTy).Contents (Elt F) :=
  addf (addf
      (Host.scatterAdd scatter_S200000x11_S6400000x1_S6400000x11_1_0_0_1
        (broadcastInDim S200000x11 ![] bcast_S_S200000x11 (constant S_ .f32 0x00000000#32))
        (broadcastInDim S6400000x1 ![0] bcast_S6400000_S6400000x1_0 d)
        (mulf (broadcastInDim S6400000x11 ![0, 1] bcast_S6400000x1_S6400000x11_0_1 (edgeNorm s d dv))
          (Host.gather gather_S200000x11_S6400000x1_S6400000x11_1_0_n_n_0_1_111 h (wrapIdx s))))
      (mulf (broadcastInDim S200000x11 ![0, 1] bcast_S200000x1_S200000x11_0_1
          (broadcastInDim S200000x1 ![0] bcast_S200000_S200000x1_0 (mulf dv dv))) h))
    (broadcastInDim S200000x11 ![0, 1] bcast_S1x11_S200000x11_0_1 (broadcastInDim S1x11 ![1] bcast_S11_S1x11_1 b))

/-- One convolution at 16 features: the same composition. -/
def conv16 (h : (⟨S200000x16, .f32⟩ : BufTy).Contents (Elt F)) (s d : (⟨S6400000, .i32⟩ : BufTy).Contents (Elt F))
    (dv : (⟨S200000, .f32⟩ : BufTy).Contents (Elt F)) (b : (⟨S16, .f32⟩ : BufTy).Contents (Elt F)) :
    (⟨S200000x16, .f32⟩ : BufTy).Contents (Elt F) :=
  addf (addf
      (Host.scatterAdd scatter_S200000x16_S6400000x1_S6400000x16_1_0_0_1
        (broadcastInDim S200000x16 ![] bcast_S_S200000x16 (constant S_ .f32 0x00000000#32))
        (broadcastInDim S6400000x1 ![0] bcast_S6400000_S6400000x1_0 d)
        (mulf (broadcastInDim S6400000x16 ![0, 1] bcast_S6400000x1_S6400000x16_0_1 (edgeNorm s d dv))
          (Host.gather gather_S200000x16_S6400000x1_S6400000x16_1_0_n_n_0_1_116 h (wrapIdx s))))
      (mulf (broadcastInDim S200000x16 ![0, 1] bcast_S200000x1_S200000x16_0_1
          (broadcastInDim S200000x1 ![0] bcast_S200000_S200000x1_0 (mulf dv dv))) h))
    (broadcastInDim S200000x16 ![0, 1] bcast_S1x16_S200000x16_0_1 (broadcastInDim S1x16 ![1] bcast_S16_S1x16_1 b))

/-- max(a, 0), entry by entry. -/
def relu11 (a : (⟨S200000x11, .f32⟩ : BufTy).Contents (Elt F)) : (⟨S200000x11, .f32⟩ : BufTy).Contents (Elt F) :=
  maximumf a (broadcastInDim S200000x11 ![] bcast_S_S200000x11 (constant S_ .f32 0x00000000#32))

/-- The whole network over three dense products. -/
def net
    (lin1 lin2 : (⟨S200000x11, .f32⟩ : BufTy).Contents (Elt F) → (⟨S11x11, .f32⟩ : BufTy).Contents (Elt F) → (⟨S200000x11, .f32⟩ : BufTy).Contents (Elt F))
    (lin3 : (⟨S200000x11, .f32⟩ : BufTy).Contents (Elt F) → (⟨S11x16, .f32⟩ : BufTy).Contents (Elt F) → (⟨S200000x16, .f32⟩ : BufTy).Contents (Elt F))
    (x : (⟨S200000x11, .f32⟩ : BufTy).Contents (Elt F)) (e : (⟨S2x6400000, .i32⟩ : BufTy).Contents (Elt F))
    (w1 : (⟨S11x11, .f32⟩ : BufTy).Contents (Elt F)) (b1 : (⟨S11, .f32⟩ : BufTy).Contents (Elt F))
    (w2 : (⟨S11x11, .f32⟩ : BufTy).Contents (Elt F)) (b2 : (⟨S11, .f32⟩ : BufTy).Contents (Elt F))
    (w3 : (⟨S11x16, .f32⟩ : BufTy).Contents (Elt F)) (b3 : (⟨S16, .f32⟩ : BufTy).Contents (Elt F)) :
    (⟨S200000x16, .f32⟩ : BufTy).Contents (Elt F) :=
  conv16 (lin3 (relu11 (conv11 (lin2 (relu11 (conv11 (lin1 x w1) (srcOf e) (dstOf e) (invSqrtDeg (dstOf e)) b1)) w2)
    (srcOf e) (dstOf e) (invSqrtDeg (dstOf e)) b2)) w3) (srcOf e) (dstOf e) (invSqrtDeg (dstOf e)) b3

end Cert.Gcn

end
-- ==== Proof.Stretches.lean ====
/-
  The four stretches of host operations of the kernel program, each read as one function of the buffers it starts
  from, for ANY starting contents `Wb`.
  The first stretch cuts the edge list into the source and destination vectors and computes, per node, the inverse
  square root of its degree. The stretch after each dense layer is one graph convolution around that layer's result
  (`Cert.Gcn.conv11`, `conv16`), followed — after the first two layers — by the relu. Every stretch leaves the buffers it
  does not write as they were; the vectors and the degrees computed by the first stretch are therefore still there
  for the later ones. The operations are those of the specification in the same order, so each result is the
  specification's term by unfolding names.
-/
import proofs.«142352_j18940805775457_1_alg».proof.Proof.Gen.KernelIdeal.Launch
import proofs.«142352_j18940805775457_1_alg».proof.Proof.Spec
import Idealize.ShloMosaic.Lib.StableHlo.Run

set_option maxRecDepth 16384

noncomputable section

namespace Cert.Gcn.Stretch

open Idealize.ShloMosaic Idealize.ShloMosaic.TcCoe Idealize.SL.Sem Idealize.ShloMosaic.StableHlo
open Cert.KernelIdeal Cert.KernelIdeal.Gen

variable {F : FTy → Type} [FloatOps F]
variable (Wb : Valuation τ sig (Elt F))

/-! ## The first stretch: the edge list's two rows and the degrees -/

theorem first_src : after hostOps0 Wb (Proc.devRef .tc main_v1) = Cert.Gcn.srcOf (Wb (Proc.devRef .tc main_arg1)) := by
  after_results; rfl

theorem first_dst : after hostOps0 Wb (Proc.devRef .tc main_v3) = Cert.Gcn.dstOf (Wb (Proc.devRef .tc main_arg1)) := by
  after_results; rfl

theorem first_deg : after hostOps0 Wb (Proc.devRef .tc main_v10)
    = Cert.Gcn.invSqrtDeg (Cert.Gcn.dstOf (Wb (Proc.devRef .tc main_arg1))) := by
  after_results; rfl

/-- A buffer none of a stretch's operations writes holds after the stretch what it held before. -/
macro "not_written" : tactic => `(tactic| (
  refine after_of_forall_not_mem _ _ (List.forall_iff_forall_mem.mp ?_)
  simp only [List.Forall, nullary_writes, unary_writes, binary_writes, ternary_writes, reshape_writes, Finset.mem_singleton]
  repeat' apply And.intro
  all_goals exact devRef_ne_of_ne (by decide)))

theorem first_keep : ∀ b ∈ [main_arg0, main_arg2, main_arg3, main_arg4, main_arg5, main_arg6, main_arg7],
    after hostOps0 Wb (Proc.devRef .tc b) = Wb (Proc.devRef .tc b) := by
  intro b hb
  simp only [List.mem_cons, List.not_mem_nil, or_false] at hb
  rcases hb with rfl | rfl | rfl | rfl | rfl | rfl | rfl <;> not_written

/-! ## After the first dense layer: the convolution at 11 features, then the relu -/

theorem second_out : after hostOps1_1 (after hostOps1 Wb) (Proc.devRef .tc main_v48)
    = Cert.Gcn.relu11 (Cert.Gcn.conv11 (Wb (Proc.devRef .tc main_v11)) (Wb (Proc.devRef .tc main_v1)) (Wb (Proc.devRef .tc main_v3))
        (Wb (Proc.devRef .tc main_v10)) (Wb (Proc.devRef .tc main_arg3))) := by
  after_results_simp; rfl

theorem second_keep : ∀ b ∈ [main_v1, main_v3, main_v10, main_arg4, main_arg5, main_arg6, main_arg7],
    after hostOps1_1 (after hostOps1 Wb) (Proc.devRef .tc b) = Wb (Proc.devRef .tc b) := by
  intro b hb
  simp only [List.mem_cons, List.not_mem_nil, or_false] at hb
  rcases hb with rfl | rfl | rfl | rfl | rfl | rfl | rfl <;>
    exact (by not_written : after hostOps1_1 (after hostOps1 Wb) _ = after hostOps1 Wb _).trans (by not_written)

/-! ## After the second dense layer: the same -/

theorem third_out : after hostOps2_1 (after hostOps2 Wb) (Proc.devRef .tc main_v86)
    = Cert.Gcn.relu11 (Cert.Gcn.conv11 (Wb (Proc.devRef .tc main_v49)) (Wb (Proc.devRef .tc main_v1)) (Wb (Proc.devRef .tc main_v3))
        (Wb (Proc.devRef .tc main_v10)) (Wb (Proc.devRef .tc main_arg5))) := by
  after_results_simp; rfl

theorem third_keep : ∀ b ∈ [main_v1, main_v3, main_v10, main_arg6, main_arg7],
    after hostOps2_1 (after hostOps2 Wb) (Proc.devRef .tc b) = Wb (Proc.devRef .tc b) := by
  intro b hb
  simp only [List.mem_cons, List.not_mem_nil, or_false] at hb
  rcases hb with rfl | rfl | rfl | rfl | rfl <;>
    exact (by not_written : after hostOps2_1 (after hostOps2 Wb) _ = after hostOps2 Wb _).trans (by not_written)

/-! ## After the third dense layer: the convolution at 16 features, the result -/

theorem last_out : after hostOps3 Wb (Proc.devRef .tc main_v123)
    = Cert.Gcn.conv16 (Wb (Proc.devRef .tc main_v87)) (Wb (Proc.devRef .tc main_v1)) (Wb (Proc.devRef .tc main_v3))
        (Wb (Proc.devRef .tc main_v10)) (Wb (Proc.devRef .tc main_arg7)) := by
  after_results_simp; rfl

end Cert.Gcn.Stretch

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibDense.lean ====
/-
  The dense product of an M×K matrix by a K×N matrix over the extended reals, entry (r, c) the sum over k of
  x(r, k)·w(k, c), and the two ways the programs spell it: the host's `dot_general` of the two matrices, and the
  vector unit's `tpu.matmul` into the zero accumulator of the two operands narrowed to bf16 — a change of float
  format is the identity on ideal values, so both are this sum, term for term. No law of arithmetic is used: the two
  sums have the same terms in the same order.
  An entry of the product depends on one row of x and one column of w only (`dense_congr`): that is what lets a row
  block of the product be computed from the same row block of x.
-/
import Idealize.ShloMosaic.PureOps.Ideal.Laws
import Idealize.ShloMosaic.Lib.ValueIdx
import Idealize.ShloMosaic.Lib.Pipeline.Value
import proofs.«142352_j18940805775457_1_alg».proof.Proof.LibPlainDot

noncomputable section

open scoped BigOperators

namespace Cert.Lib.Dense

open Idealize.ShloMosaic Idealize.ShloMosaic.ValueIdx

variable {M K N : Nat}

/-- x·w, entry by entry. -/
def dense (M K N : Nat) (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem dense_apply (x : FVec Ideal ⟨2, ![M, K]⟩ .f32) (w : FVec Ideal ⟨2, ![K, N]⟩ .f32) (r : Fin M) (c : Fin N) :
    dense M K N x w (ix2 r c) = ∑ k : Fin K, x (ix2 r k) * w (ix2 k c) := rfl

/-- An entry of a product needs only its row of the left operand and its column of the right one: two products agree at
    two entries once the rows and the columns agree term by term. -/
theorem dense_congr {M' N' : Nat} (x : FVec Ideal ⟨2, ![M, K]⟩ .f32) (w : FVec Ideal ⟨2, ![K, N]⟩ .f32)
    (x' : FVec Ideal ⟨2, ![M', K]⟩ .f32) (w' : FVec Ideal ⟨2, ![K, N']⟩ .f32)
    (i : (⟨2, ![M, N]⟩ : Shape).Idx) (i' : (⟨2, ![M', N']⟩ : Shape).Idx)
    (hx : ∀ k : Fin K, x (ix2 (n0 := M) (i 0) k) = x' (ix2 (n0 := M') (i' 0) k))
    (hw : ∀ k : Fin K, w (ix2 (n1 := N) k (i 1)) = w' (ix2 (n1 := N') k (i' 1))) :
    dense M K N x w i = dense M' K N' x' w' i' :=
  Finset.sum_congr rfl fun k _ => by rw [hx k, hw k]

/-- The host's `dot_general` of two matrices is their dense product. -/
theorem hostDot_eq (prec : Option ContractPrecision) (x : FVec Ideal ⟨2, ![M, K]⟩ .f32) (w : FVec Ideal ⟨2, ![K, N]⟩ .f32) :
    Host.dotGeneral (DotDims.plain M K N) prec x w = dense M K N x w := by
  funext i
  rw [eq_ix2 i]
  simp only [Host.dotGeneral]
  exact PlainDot.dotGeneral_apply prec _ x w (i 0) (i 1)

/-- The vector unit's product of the operands narrowed to bf16, accumulated from zero, is their dense product. -/
theorem matmulBf16_eq (prec : Option ContractPrecision) (x : FVec Ideal ⟨2, ![M, K]⟩ .f32) (w : FVec Ideal ⟨2, ![K, N]⟩ .f32)
    (h : FTy.bf16.bits < FTy.f32.bits) :
    matmul (DotDims.plain M K N) prec (truncf .bf16 x h) (truncf .bf16 w h) (constant (⟨2, ![M, N]⟩ : Shape) .f32 0x00000000#32)
      = dense M K N x w := by
  funext i
  rw [eq_ix2 i]
  exact PlainDot.matmul_zero_apply prec (truncf .bf16 x h) (truncf .bf16 w h) (i 0) (i 1)

end Cert.Lib.Dense

end
-- ==== Proof.Region0.lean ====
/-
  Region 0: what the first dense layer leaves in its result array, for ANY contents `V` of the buffers when the region is
  entered. The grid has 100 points; point t takes rows 2000·t … 2000·t + 1999 of the 200000×11 input (a 2000×11 block),
  the whole 11×11 weight, and writes rows 2000·t … 2000·t + 1999 of the 200000×11 result: the block's product with the
  weight. A row of a dense product depends only on the same row of the left operand, so each written block is the same
  rows of the product of the WHOLE input with the weight; the 100 row blocks tile the result, which therefore ends
  holding `dense 200000 11 11` of the input array and the weight array as the region found them.
-/
import proofs.«142352_j18940805775457_1_alg».proof.Proof.Gen.KernelIdeal.Frame
import proofs.«142352_j18940805775457_1_alg».proof.Proof.LibDense
import Idealize.ShloMosaic.Lib.Pipeline.Value

set_option maxRecDepth 16384

noncomputable section

open scoped BigOperators

namespace Cert.Gcn.Region0

open Idealize.ShloMosaic Idealize.ShloMosaic.TcCoe Idealize.SL.Sem Idealize.ShloMosaic.ValueIdx
open Idealize.ShloMosaic.Pipeline (Dat)
open Cert.KernelIdeal Cert.KernelIdeal.Gen
open Cert.Lib.Dense

variable (V : (c : Dev nD) → (b : Ref sig .tc) → Buf (Elt Ideal) ((c : Thread nD τ).loc b))

theorem hz : (![0, 0] : Fin 2 → Nat) = fun _ => 0 := funext fun a => by fin_cases a <;> rfl

/-- The body's one store: the block's rows times the weight. -/
theorem pay_eq (x0 : Vec Ideal S2000x11 .f32) (x1 : Vec Ideal S11x11 .f32) : k0_pay1 x0 x1 = dense 2000 11 11 x0 x1 := by
  unfold k0_pay1
  exact matmulBf16_eq none x0 x1 bitsLt_bf16_f32

/-- The windows' block indices over the grid: the input and the result move down one block of rows per point, the weight
    stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point t is rows 2000·t … of the input array. -/
theorem x_block (c : Dev nD) (t : Fin cfg0.N) (y : S2000x11.Idx) (i : S200000x11.Idx)
    (h0 : (i 0).val = t.val * 2000 + (y 0).val) (h1 : (i 1).val = (y 1).val) :
    (iblk0 V c 0 t : Vec Ideal S2000x11 .f32) y = (V c main_arg0 : S200000x11.Idx → Elt Ideal .f32) i := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * (y 0).val = (i 0).val; omega
  | ⟨1, _⟩ => show win0_0.index t (1 : Fin 2) * 11 + 1 * (y 1).val = (i 1).val; omega

/-- The weight block at every point is the weight array. -/
theorem w_block (c : Dev nD) (t : Fin cfg0.N) (y i : S11x11.Idx) (h0 : (i 0).val = (y 0).val) (h1 : (i 1).val = (y 1).val) :
    (iblk0 V c 1 t : Vec Ideal S11x11 .f32) y = (V c main_arg2 : S11x11.Idx → Elt Ideal .f32) i := by
  obtain ⟨-, -, e2, e3, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 11 + 1 * (y 0).val = (i 0).val; omega
  | ⟨1, _⟩ => show win0_1.index t (1 : Fin 2) * 11 + 1 * (y 1).val = (i 1).val; omega

/-- What point t writes back is block t of the product of the whole input with the weight. -/
theorem flushed_eq (c : Dev nD) (t : Fin cfg0.N) :
    (dat0 V c).flushed 2 t = ((cfg0.win 2).blk t).view.read (Elt Ideal) (dense 200000 11 11 (V c main_arg0) (V c main_arg2)) := by
  show (cfg0.win 2).cut (grid0.coords t) ((dat0 V c).after 2 t) = _
  rw [after0_2]
  unfold out0_2
  rw [View.canon_unit_zero hz]
  simp only [View.ld_unit_zero (S := S2000x11) hz, View.ld_unit_zero (S := S11x11) hz]
  rw [pay_eq]
  obtain ⟨-, -, -, -, e4, e5⟩ := idx_facts t
  funext j
  rw [View.read_apply]
  exact dense_congr (iblk0 V c 0 t) (iblk0 V c 1 t) (V c main_arg0) (V c main_arg2) j (((cfg0.win 2).blk t).view.emb j)
    (fun k => x_block V c t (ix2 (j 0) k) (ix2 ((((cfg0.win 2).blk t).view.emb j) 0) k)
      (by show win0_2.index t (0 : Fin 2) * 2000 + 1 * (j 0).val = t.val * 2000 + (j 0).val; omega) rfl)
    (fun k => w_block V c t (ix2 k (j 1)) (ix2 k ((((cfg0.win 2).blk t).view.emb j) 1)) rfl
      (by show win0_2.index t (1 : Fin 2) * 11 + 1 * (j 1).val = (j 1).val; omega))

/-- An index of the result array is in point t's block iff each coordinate is in the block's range on its axis. -/
theorem mem_blk (t : Fin cfg0.N) (i : S200000x11.Idx) :
    i ∈ ((cfg0.win 2).blk t).view.set ↔ ∀ a : Fin 2, win0_2.index t a * S2000x11.size a ≤ (i a).val ∧ (i a).val < win0_2.index t a * S2000x11.size a + S2000x11.size a := by
  show i ∈ ((View.whole main_v11).slice (win0_2.rect t)).set ↔ _
  rw [View.set_slice_whole, Rect.mem_set_unit]
  exact Iff.rfl

/-- Every row of the result is in the block of the point (row / 2000). -/
theorem cover (i : S200000x11.Idx) : ∃ t : Fin cfg0.N, (cfg0.win 2).flush t = true ∧ i ∈ ((cfg0.win 2).blk t).view.set := by
  have hi0 : (i 0).val < 200000 := (i 0).isLt
  have hi1 : (i 1).val < 11 := (i 1).isLt
  have hN : cfg0.N = 100 := N_0
  obtain ⟨t, ht⟩ : ∃ t : Fin cfg0.N, t.val = (i 0).val / 2000 := ⟨⟨(i 0).val / 2000, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 11 ≤ (i 1).val ∧ (i 1).val < win0_2.index t (1 : Fin 2) * 11 + 11; omega

/-- The result array after the region: the dense product of the input array and the weight array as entered. -/
theorem final (c : Dev nD) :
    (dat0 V c).arrAt 2 cfg0.N = dense 200000 11 11 (V c main_arg0) (V c main_arg2) :=
  (dat0 V c).arrAt_eq_of_cover 2 _ (fun t _ => flushed_eq V c t) cover

end Cert.Gcn.Region0

end
-- ==== Proof.Region1.lean ====
/-
  Region 1: what the second dense layer leaves in its result array, for ANY contents `V` of the buffers when the region is
  entered. The grid has 100 points; point t takes rows 2000·t … 2000·t + 1999 of the 200000×11 input (a 2000×11 block),
  the whole 11×11 weight, and writes rows 2000·t … 2000·t + 1999 of the 200000×11 result: the block's product with the
  weight. A row of a dense product depends only on the same row of the left operand, so each written block is the same
  rows of the product of the WHOLE input with the weight; the 100 row blocks tile the result, which therefore ends
  holding `dense 200000 11 11` of the input array and the weight array as the region found them.
-/
import proofs.«142352_j18940805775457_1_alg».proof.Proof.Gen.KernelIdeal.Frame
import proofs.«142352_j18940805775457_1_alg».proof.Proof.LibDense
import Idealize.ShloMosaic.Lib.Pipeline.Value

set_option maxRecDepth 16384

noncomputable section

open scoped BigOperators

namespace Cert.Gcn.Region1

open Idealize.ShloMosaic Idealize.ShloMosaic.TcCoe Idealize.SL.Sem Idealize.ShloMosaic.ValueIdx
open Idealize.ShloMosaic.Pipeline (Dat)
open Cert.KernelIdeal Cert.KernelIdeal.Gen
open Cert.Lib.Dense

variable (V : (c : Dev nD) → (b : Ref sig .tc) → Buf (Elt Ideal) ((c : Thread nD τ).loc b))

theorem hz : (![0, 0] : Fin 2 → Nat) = fun _ => 0 := funext fun a => by fin_cases a <;> rfl

/-- The body's one store: the block's rows times the weight. -/
theorem pay_eq (x0 : Vec Ideal S2000x11 .f32) (x1 : Vec Ideal S11x11 .f32) : k1_pay1 x0 x1 = dense 2000 11 11 x0 x1 := by
  unfold k1_pay1
  rw [shapeCast_self]
  exact matmulBf16_eq none x0 x1 bitsLt_bf16_f32

/-- The windows' block indices over the grid: the input and the result move down one block of rows per point, the weight
    stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input block at point t is rows 2000·t … of the input array. -/
theorem x_block (c : Dev nD) (t : Fin cfg1.N) (y : S2000x11.Idx) (i : S200000x11.Idx)
    (h0 : (i 0).val = t.val * 2000 + (y 0).val) (h1 : (i 1).val = (y 1).val) :
    (iblk1 V c 0 t : Vec Ideal S2000x11 .f32) y = (V c main_v48 : S200000x11.Idx → Elt Ideal .f32) i := by
  obtain ⟨e0, e1, -⟩ := idx_facts t
  unfold iblk1
  rw [View.read_apply]
  show V c main_v48 _ = V c main_v48 _
  refine congrArg (V c main_v48) (funext fun a => Fin.ext ?_)
  match a with
  | ⟨0, _⟩ => show win1_0.index t (0 : Fin 2) * 2000 + 1 * (y 0).val = (i 0).val; omega
  | ⟨1, _⟩ => show win1_0.index t (1 : Fin 2) * 11 + 1 * (y 1).val = (i 1).val; omega

/-- The weight block at every point is the weight array. -/
theorem w_block (c : Dev nD) (t : Fin cfg1.N) (y i : S11x11.Idx) (h0 : (i 0).val = (y 0).val) (h1 : (i 1).val = (y 1).val) :
    (iblk1 V c 1 t : Vec Ideal S11x11 .f32) y = (V c main_arg4 : S11x11.Idx → Elt Ideal .f32) i := by
  obtain ⟨-, -, e2, e3, -⟩ := idx_facts t
  unfold iblk1
  rw [View.read_apply]
  show V c main_arg4 _ = V c main_arg4 _
  refine congrArg (V c main_arg4) (funext fun a => Fin.ext ?_)
  match a with
  | ⟨0, _⟩ => show win1_1.index t (0 : Fin 2) * 11 + 1 * (y 0).val = (i 0).val; omega
  | ⟨1, _⟩ => show win1_1.index t (1 : Fin 2) * 11 + 1 * (y 1).val = (i 1).val; omega

/-- What point t writes back is block t of the product of the whole input with the weight. -/
theorem flushed_eq (c : Dev nD) (t : Fin cfg1.N) :
    (dat1 V c).flushed 2 t = ((cfg1.win 2).blk t).view.read (Elt Ideal) (dense 200000 11 11 (V c main_v48) (V c main_arg4)) := by
  show (cfg1.win 2).cut (grid1.coords t) ((dat1 V c).after 2 t) = _
  rw [after1_2]
  unfold out1_2
  rw [View.canon_unit_zero hz]
  simp only [View.ld_unit_zero (S := S2000x11) hz, View.ld_unit_zero (S := S11x11) hz]
  rw [pay_eq]
  obtain ⟨-, -, -, -, e4, e5⟩ := idx_facts t
  funext j
  rw [View.read_apply]
  exact dense_congr (iblk1 V c 0 t) (iblk1 V c 1 t) (V c main_v48) (V c main_arg4) j (((cfg1.win 2).blk t).view.emb j)
    (fun k => x_block V c t (ix2 (j 0) k) (ix2 ((((cfg1.win 2).blk t).view.emb j) 0) k)
      (by show win1_2.index t (0 : Fin 2) * 2000 + 1 * (j 0).val = t.val * 2000 + (j 0).val; omega) rfl)
    (fun k => w_block V c t (ix2 k (j 1)) (ix2 k ((((cfg1.win 2).blk t).view.emb j) 1)) rfl
      (by show win1_2.index t (1 : Fin 2) * 11 + 1 * (j 1).val = (j 1).val; omega))

/-- An index of the result array is in point t's block iff each coordinate is in the block's range on its axis. -/
theorem mem_blk (t : Fin cfg1.N) (i : S200000x11.Idx) :
    i ∈ ((cfg1.win 2).blk t).view.set ↔ ∀ a : Fin 2, win1_2.index t a * S2000x11.size a ≤ (i a).val ∧ (i a).val < win1_2.index t a * S2000x11.size a + S2000x11.size a := by
  show i ∈ ((View.whole main_v49).slice (win1_2.rect t)).set ↔ _
  rw [View.set_slice_whole, Rect.mem_set_unit]
  exact Iff.rfl

/-- Every row of the result is in the block of the point (row / 2000). -/
theorem cover (i : S200000x11.Idx) : ∃ t : Fin cfg1.N, (cfg1.win 2).flush t = true ∧ i ∈ ((cfg1.win 2).blk t).view.set := by
  have hi0 : (i 0).val < 200000 := (i 0).isLt
  have hi1 : (i 1).val < 11 := (i 1).isLt
  have hN : cfg1.N = 100 := N_1
  obtain ⟨t, ht⟩ : ∃ t : Fin cfg1.N, t.val = (i 0).val / 2000 := ⟨⟨(i 0).val / 2000, by rw [hN]; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 11 ≤ (i 1).val ∧ (i 1).val < win1_2.index t (1 : Fin 2) * 11 + 11; omega

/-- The result array after the region: the dense product of the input array and the weight array as entered. -/
theorem final (c : Dev nD) :
    (dat1 V c).arrAt 2 cfg1.N = dense 200000 11 11 (V c main_v48) (V c main_arg4) :=
  (dat1 V c).arrAt_eq_of_cover 2 _ (fun t _ => flushed_eq V c t) cover

end Cert.Gcn.Region1

end
-- ==== Proof.Region2.lean ====
/-
  Region 2: what the third dense layer leaves in its result array, for ANY contents `V` of the buffers when the region is
  entered. The grid has 100 points; point t takes rows 2000·t … 2000·t + 1999 of the 200000×11 input (a 2000×11 block),
  the whole 11×16 weight, and writes rows 2000·t … 2000·t + 1999 of the 200000×16 result: the block's product with the
  weight. A row of a dense product depends only on the same row of the left operand, so each written block is the same
  rows of the product of the WHOLE input with the weight; the 100 row blocks tile the result, which therefore ends
  holding `dense 200000 11 16` of the input array and the weight array as the region found them.
-/
import proofs.«142352_j18940805775457_1_alg».proof.Proof.Gen.KernelIdeal.Frame
import proofs.«142352_j18940805775457_1_alg».proof.Proof.LibDense
import Idealize.ShloMosaic.Lib.Pipeline.Value

set_option maxRecDepth 16384

noncomputable section

open scoped BigOperators

namespace Cert.Gcn.Region2

open Idealize.ShloMosaic Idealize.ShloMosaic.TcCoe Idealize.SL.Sem Idealize.ShloMosaic.ValueIdx
open Idealize.ShloMosaic.Pipeline (Dat)
open Cert.KernelIdeal Cert.KernelIdeal.Gen
open Cert.Lib.Dense

variable (V : (c : Dev nD) → (b : Ref sig .tc) → Buf (Elt Ideal) ((c : Thread nD τ).loc b))

theorem hz : (![0, 0] : Fin 2 → Nat) = fun _ => 0 := funext fun a => by fin_cases a <;> rfl

/-- The body's one store: the block's rows times the weight. -/
theorem pay_eq (x0 : Vec Ideal S2000x11 .f32) (x1 : Vec Ideal S11x16 .f32) : k2_pay1 x0 x1 = dense 2000 11 16 x0 x1 := by
  unfold k2_pay1
  rw [shapeCast_self]
  exact matmulBf16_eq none x0 x1 bitsLt_bf16_f32

/-- The windows' block indices over the grid: the input and the result move down one block of rows per point, the weight
    stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input block at point t is rows 2000·t … of the input array. -/
theorem x_block (c : Dev nD) (t : Fin cfg2.N) (y : S2000x11.Idx) (i : S200000x11.Idx)
    (h0 : (i 0).val = t.val * 2000 + (y 0).val) (h1 : (i 1).val = (y 1).val) :
    (iblk2 V c 0 t : Vec Ideal S2000x11 .f32) y = (V c main_v86 : S200000x11.Idx → Elt Ideal .f32) i := by
  obtain ⟨e0, e1, -⟩ := idx_facts t
  unfold iblk2
  rw [View.read_apply]
  show V c main_v86 _ = V c main_v86 _
  refine congrArg (V c main_v86) (funext fun a => Fin.ext ?_)
  match a with
  | ⟨0, _⟩ => show win2_0.index t (0 : Fin 2) * 2000 + 1 * (y 0).val = (i 0).val; omega
  | ⟨1, _⟩ => show win2_0.index t (1 : Fin 2) * 11 + 1 * (y 1).val = (i 1).val; omega

/-- The weight block at every point is the weight array. -/
theorem w_block (c : Dev nD) (t : Fin cfg2.N) (y i : S11x16.Idx) (h0 : (i 0).val = (y 0).val) (h1 : (i 1).val = (y 1).val) :
    (iblk2 V c 1 t : Vec Ideal S11x16 .f32) y = (V c main_arg6 : S11x16.Idx → Elt Ideal .f32) i := by
  obtain ⟨-, -, e2, e3, -⟩ := idx_facts t
  unfold iblk2
  rw [View.read_apply]
  show V c main_arg6 _ = V c main_arg6 _
  refine congrArg (V c main_arg6) (funext fun a => Fin.ext ?_)
  match a with
  | ⟨0, _⟩ => show win2_1.index t (0 : Fin 2) * 11 + 1 * (y 0).val = (i 0).val; omega
  | ⟨1, _⟩ => show win2_1.index t (1 : Fin 2) * 16 + 1 * (y 1).val = (i 1).val; omega

/-- What point t writes back is block t of the product of the whole input with the weight. -/
theorem flushed_eq (c : Dev nD) (t : Fin cfg2.N) :
    (dat2 V c).flushed 2 t = ((cfg2.win 2).blk t).view.read (Elt Ideal) (dense 200000 11 16 (V c main_v86) (V c main_arg6)) := by
  show (cfg2.win 2).cut (grid2.coords t) ((dat2 V c).after 2 t) = _
  rw [after2_2]
  unfold out2_2
  rw [View.canon_unit_zero hz]
  simp only [View.ld_unit_zero (S := S2000x11) hz, View.ld_unit_zero (S := S11x16) hz]
  rw [pay_eq]
  obtain ⟨-, -, -, -, e4, e5⟩ := idx_facts t
  funext j
  rw [View.read_apply]
  exact dense_congr (iblk2 V c 0 t) (iblk2 V c 1 t) (V c main_v86) (V c main_arg6) j (((cfg2.win 2).blk t).view.emb j)
    (fun k => x_block V c t (ix2 (j 0) k) (ix2 ((((cfg2.win 2).blk t).view.emb j) 0) k)
      (by show win2_2.index t (0 : Fin 2) * 2000 + 1 * (j 0).val = t.val * 2000 + (j 0).val; omega) rfl)
    (fun k => w_block V c t (ix2 k (j 1)) (ix2 k ((((cfg2.win 2).blk t).view.emb j) 1)) rfl
      (by show win2_2.index t (1 : Fin 2) * 16 + 1 * (j 1).val = (j 1).val; omega))

/-- An index of the result array is in point t's block iff each coordinate is in the block's range on its axis. -/
theorem mem_blk (t : Fin cfg2.N) (i : S200000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_v87).slice (win2_2.rect t)).set ↔ _
  rw [View.set_slice_whole, Rect.mem_set_unit]
  exact Iff.rfl

/-- Every row of the result is in the block of the point (row / 2000). -/
theorem cover (i : S200000x16.Idx) : ∃ t : Fin cfg2.N, (cfg2.win 2).flush t = true ∧ i ∈ ((cfg2.win 2).blk t).view.set := by
  have hi0 : (i 0).val < 200000 := (i 0).isLt
  have hi1 : (i 1).val < 16 := (i 1).isLt
  have hN : cfg2.N = 100 := N_2
  obtain ⟨t, ht⟩ : ∃ t : Fin cfg2.N, t.val = (i 0).val / 2000 := ⟨⟨(i 0).val / 2000, by rw [hN]; omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 16 ≤ (i 1).val ∧ (i 1).val < win2_2.index t (1 : Fin 2) * 16 + 16; omega

/-- The result array after the region: the dense product of the input array and the weight array as entered. -/
theorem final (c : Dev nD) :
    (dat2 V c).arrAt 2 cfg2.N = dense 200000 11 16 (V c main_v86) (V c main_arg6) :=
  (dat2 V c).arrAt_eq_of_cover 2 _ (fun t _ => flushed_eq V c t) cover

end Cert.Gcn.Region2

end
-- ==== Proof.KernelValue.lean ====
/-
  What the idealized kernel program leaves in its result buffer, as the network of `Spec.lean` over the dense product.
  The buffer contents are followed through @main's nine segments from the launch memory `m`:
  the first stretch leaves the source and destination vectors and the inverse square roots of the degrees; region 0
  leaves x·W₁ in its result array and nothing else changed; the next stretch leaves relu(conv(x·W₁) + b₁), and so on
  through regions 1 and 2; the last stretch leaves the third convolution in the result buffer. At every boundary the
  statement lists the few buffers later segments read: a region's exit keeps every buffer that is not one of its three
  arrays, a host stretch every buffer it does not write.
-/
import proofs.«142352_j18940805775457_1_alg».proof.Proof.Gen.KernelIdeal.Frame
import proofs.«142352_j18940805775457_1_alg».proof.Proof.Stretches
import proofs.«142352_j18940805775457_1_alg».proof.Proof.Region0
import proofs.«142352_j18940805775457_1_alg».proof.Proof.Region1
import proofs.«142352_j18940805775457_1_alg».proof.Proof.Region2

set_option maxRecDepth 16384

noncomputable section

namespace Cert.Gcn.KernelValue

open Idealize.ShloMosaic Idealize.ShloMosaic.TcCoe Idealize.SL.Sem Idealize.ShloMosaic.StableHlo
open Cert.KernelIdeal Cert.KernelIdeal.Gen
open Cert.Lib.Dense

variable (m : (ℓ : Loc nD τ sig) → Buf (Elt Ideal) ℓ) (ρ : Dev nD → PrngReg) (c : Dev nD)

/-- The source vector, the destination vector and the inverse square roots of the degrees, from the edge list as
    launched. -/
abbrev src : (⟨S6400000, .i32⟩ : BufTy).Contents (Elt Ideal) := Cert.Gcn.srcOf (m ((c : Thread nD τ).loc main_arg1))
abbrev dst : (⟨S6400000, .i32⟩ : BufTy).Contents (Elt Ideal) := Cert.Gcn.dstOf (m ((c : Thread nD τ).loc main_arg1))
abbrev deg : (⟨S200000, .f32⟩ : BufTy).Contents (Elt Ideal) := Cert.Gcn.invSqrtDeg (dst m c)

/-- The three dense layers' results and the two hidden activations. -/
abbrev h1 : (⟨S200000x11, .f32⟩ : BufTy).Contents (Elt Ideal) :=
  dense 200000 11 11 (m ((c : Thread nD τ).loc main_arg0)) (m ((c : Thread nD τ).loc main_arg2))
abbrev a1 : (⟨S200000x11, .f32⟩ : BufTy).Contents (Elt Ideal) :=
  Cert.Gcn.relu11 (Cert.Gcn.conv11 (h1 m c) (src m c) (dst m c) (deg m c) (m ((c : Thread nD τ).loc main_arg3)))
abbrev h2 : (⟨S200000x11, .f32⟩ : BufTy).Contents (Elt Ideal) :=
  dense 200000 11 11 (a1 m c) (m ((c : Thread nD τ).loc main_arg4))
abbrev a2 : (⟨S200000x11, .f32⟩ : BufTy).Contents (Elt Ideal) :=
  Cert.Gcn.relu11 (Cert.Gcn.conv11 (h2 m c) (src m c) (dst m c) (deg m c) (m ((c : Thread nD τ).loc main_arg5)))
abbrev h3 : (⟨S200000x16, .f32⟩ : BufTy).Contents (Elt Ideal) :=
  dense 200000 11 16 (a2 m c) (m ((c : Thread nD τ).loc main_arg6))

/-! ## After the first stretch -/

theorem at1_src : W1 m ρ c (Proc.devRef .tc main_v1) = src m c := Stretch.first_src (W0 m ρ c)
theorem at1_dst : W1 m ρ c (Proc.devRef .tc main_v3) = dst m c := Stretch.first_dst (W0 m ρ c)
theorem at1_deg : W1 m ρ c (Proc.devRef .tc main_v10) = deg m c := Stretch.first_deg (W0 m ρ c)
theorem at1_arg (b : Ref sig .tc) (hb : b ∈ [main_arg0, main_arg2, main_arg3, main_arg4, main_arg5, main_arg6, main_arg7]) :
    W1 m ρ c (Proc.devRef .tc b) = m ((c : Thread nD τ).loc b) := Stretch.first_keep (W0 m ρ c) b hb

/-! ## After region 0 -/

theorem at2_h : W2 m ρ c (Proc.devRef .tc main_v11) = h1 m c := by
  refine (W2_arr m ρ c 2).trans ((Region0.final (V1 m ρ) c).trans ?_)
  show dense 200000 11 11 (W1 m ρ c (Proc.devRef .tc main_arg0)) (W1 m ρ c (Proc.devRef .tc main_arg2)) = _
  rw [at1_arg m ρ c main_arg0 (by decide), at1_arg m ρ c main_arg2 (by decide)]

theorem at2_src : W2 m ρ c (Proc.devRef .tc main_v1) = src m c := (W2_of_ne m ρ c main_v1 (by decide)).trans (at1_src m ρ c)
theorem at2_dst : W2 m ρ c (Proc.devRef .tc main_v3) = dst m c := (W2_of_ne m ρ c main_v3 (by decide)).trans (at1_dst m ρ c)
theorem at2_deg : W2 m ρ c (Proc.devRef .tc main_v10) = deg m c := (W2_of_ne m ρ c main_v10 (by decide)).trans (at1_deg m ρ c)
theorem at2_arg (b : Ref sig .tc) (hb : b ∈ [main_arg3, main_arg4, main_arg5, main_arg6, main_arg7]) :
    W2 m ρ c (Proc.devRef .tc b) = m ((c : Thread nD τ).loc b) := by
  simp only [List.mem_cons, List.not_mem_nil, or_false] at hb
  rcases hb with rfl | rfl | rfl | rfl | rfl <;>
    exact (W2_of_ne m ρ c _ (by decide)).trans (at1_arg m ρ c _ (by decide))

/-! ## After the convolution and the relu that follow region 0 (region 1's entry) -/

theorem at4_a : W4 m ρ c (Proc.devRef .tc main_v48) = a1 m c := by
  refine (Stretch.second_out (W2 m ρ c)).trans ?_
  rw [at2_h, at2_src, at2_dst, at2_deg, at2_arg m ρ c main_arg3 (by decide)]

theorem at4_src : W4 m ρ c (Proc.devRef .tc main_v1) = src m c :=
  (Stretch.second_keep (W2 m ρ c) main_v1 (by decide)).trans (at2_src m ρ c)
theorem at4_dst : W4 m ρ c (Proc.devRef .tc main_v3) = dst m c :=
  (Stretch.second_keep (W2 m ρ c) main_v3 (by decide)).trans (at2_dst m ρ c)
theorem at4_deg : W4 m ρ c (Proc.devRef .tc main_v10) = deg m c :=
  (Stretch.second_keep (W2 m ρ c) main_v10 (by decide)).trans (at2_deg m ρ c)
theorem at4_arg (b : Ref sig .tc) (hb : b ∈ [main_arg4, main_arg5, main_arg6, main_arg7]) :
    W4 m ρ c (Proc.devRef .tc b) = m ((c : Thread nD τ).loc b) := by
  simp only [List.mem_cons, List.not_mem_nil, or_false] at hb
  rcases hb with rfl | rfl | rfl | rfl <;>
    exact (Stretch.second_keep (W2 m ρ c) _ (by decide)).trans (at2_arg m ρ c _ (by decide))

/-! ## After region 1 -/

theorem at5_h : W5 m ρ c (Proc.devRef .tc main_v49) = h2 m c := by
  refine (W5_arr m ρ c 2).trans ((Region1.final (V4 m ρ) c).trans ?_)
  show dense 200000 11 11 (W4 m ρ c (Proc.devRef .tc main_v48)) (W4 m ρ c (Proc.devRef .tc main_arg4)) = _
  rw [at4_a, at4_arg m ρ c main_arg4 (by decide)]

theorem at5_src : W5 m ρ c (Proc.devRef .tc main_v1) = src m c := (W5_of_ne m ρ c main_v1 (by decide)).trans (at4_src m ρ c)
theorem at5_dst : W5 m ρ c (Proc.devRef .tc main_v3) = dst m c := (W5_of_ne m ρ c main_v3 (by decide)).trans (at4_dst m ρ c)
theorem at5_deg : W5 m ρ c (Proc.devRef .tc main_v10) = deg m c := (W5_of_ne m ρ c main_v10 (by decide)).trans (at4_deg m ρ c)
theorem at5_arg (b : Ref sig .tc) (hb : b ∈ [main_arg5, main_arg6, main_arg7]) :
    W5 m ρ c (Proc.devRef .tc b) = m ((c : Thread nD τ).loc b) := by
  simp only [List.mem_cons, List.not_mem_nil, or_false] at hb
  rcases hb with rfl | rfl | rfl <;>
    exact (W5_of_ne m ρ c _ (by decide)).trans (at4_arg m ρ c _ (by decide))

/-! ## After the convolution and the relu that follow region 1 (region 2's entry) -/

theorem at7_a : W7 m ρ c (Proc.devRef .tc main_v86) = a2 m c := by
  refine (Stretch.third_out (W5 m ρ c)).trans ?_
  rw [at5_h, at5_src, at5_dst, at5_deg, at5_arg m ρ c main_arg5 (by decide)]

theorem at7_src : W7 m ρ c (Proc.devRef .tc main_v1) = src m c :=
  (Stretch.third_keep (W5 m ρ c) main_v1 (by decide)).trans (at5_src m ρ c)
theorem at7_dst : W7 m ρ c (Proc.devRef .tc main_v3) = dst m c :=
  (Stretch.third_keep (W5 m ρ c) main_v3 (by decide)).trans (at5_dst m ρ c)
theorem at7_deg : W7 m ρ c (Proc.devRef .tc main_v10) = deg m c :=
  (Stretch.third_keep (W5 m ρ c) main_v10 (by decide)).trans (at5_deg m ρ c)
theorem at7_arg (b : Ref sig .tc) (hb : b ∈ [main_arg6, main_arg7]) :
    W7 m ρ c (Proc.devRef .tc b) = m ((c : Thread nD τ).loc b) := by
  simp only [List.mem_cons, List.not_mem_nil, or_false] at hb
  rcases hb with rfl | rfl <;>
    exact (Stretch.third_keep (W5 m ρ c) _ (by decide)).trans (at5_arg m ρ c _ (by decide))

/-! ## After region 2 -/

theorem at8_h : W8 m ρ c (Proc.devRef .tc main_v87) = h3 m c := by
  refine (W8_arr m ρ c 2).trans ((Region2.final (V7 m ρ) c).trans ?_)
  show dense 200000 11 16 (W7 m ρ c (Proc.devRef .tc main_v86)) (W7 m ρ c (Proc.devRef .tc main_arg6)) = _
  rw [at7_a, at7_arg m ρ c main_arg6 (by decide)]

theorem at8_src : W8 m ρ c (Proc.devRef .tc main_v1) = src m c := (W8_of_ne m ρ c main_v1 (by decide)).trans (at7_src m ρ c)
theorem at8_dst : W8 m ρ c (Proc.devRef .tc main_v3) = dst m c := (W8_of_ne m ρ c main_v3 (by decide)).trans (at7_dst m ρ c)
theorem at8_deg : W8 m ρ c (Proc.devRef .tc main_v10) = deg m c := (W8_of_ne m ρ c main_v10 (by decide)).trans (at7_deg m ρ c)
theorem at8_arg7 : W8 m ρ c (Proc.devRef .tc main_arg7) = m ((c : Thread nD τ).loc main_arg7) :=
  (W8_of_ne m ρ c main_arg7 (by decide)).trans (at7_arg m ρ c main_arg7 (by decide))

/-! ## After the last stretch: the result buffer -/

/-- The result buffer after @main holds the network, over the dense product, of the eight argument arrays as
    launched. -/
theorem result : W9 m ρ c (Proc.devRef .tc main_v123)
    = Cert.Gcn.net (dense 200000 11 11) (dense 200000 11 11) (dense 200000 11 16)
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (Stretch.last_out (W8 m ρ c)).trans ?_
  rw [at8_h, at8_src, at8_dst, at8_deg, at8_arg7]
  rfl

end Cert.Gcn.KernelValue

end
-- ==== Proof.RefNet.lean ====
/-
  The reference program is the network of `Spec.lean` over the host's dense product: its last stage, as a function
  of the eight argument arrays, is `Cert.Gcn.net` with every `lin` the host's `dot_general` of a 200000×11 matrix by an
  11×11 (11×16) matrix. The reference recomputes the inverse square root of the degrees in each layer; the three
  copies are one expression of the destination vector, which the network names once.
  Each stage of the reference is one operation applied to earlier stages, and the network is the same operations
  composed in the same order, so the two agree by unfolding names alone: no array is opened. At ideal values the host's
  `dot_general` is the dense product of `LibDense.lean`, entry by entry the same sum.
-/
import proofs.«142352_j18940805775457_1_alg».proof.Proof.Gen.ReferenceIdeal.Read
import proofs.«142352_j18940805775457_1_alg».proof.Proof.Spec
import proofs.«142352_j18940805775457_1_alg».proof.Proof.LibDense

noncomputable section

namespace Cert.Gcn.Ref

open Idealize.ShloMosaic Idealize.SL.Sem Cert.ReferenceIdeal Cert.ReferenceIdeal.Read
open Cert.Lib.Dense

variable {F : FTy → Type} [FloatOps F] [Cert.KernelIdeal.Facts] [Cert.ReferenceIdeal.Facts]

/-- The host's dense product into 11 features. -/
def hostLin11 (l : (⟨S200000x11, .f32⟩ : BufTy).Contents (Elt F)) (r : (⟨S11x11, .f32⟩ : BufTy).Contents (Elt F)) :
    (⟨S200000x11, .f32⟩ : BufTy).Contents (Elt F) :=
  Host.dotGeneral dot_S200000x11_S11x11_S200000x11_1_0_0_1_n_n none l r

/-- The host's dense product into 16 features. -/
def hostLin16 (l : (⟨S200000x11, .f32⟩ : BufTy).Contents (Elt F)) (r : (⟨S11x16, .f32⟩ : BufTy).Contents (Elt F)) :
    (⟨S200000x16, .f32⟩ : BufTy).Contents (Elt F) :=
  Host.dotGeneral dot_S200000x11_S11x16_S200000x16_1_0_0_1_n_n none l r

set_option maxHeartbeats 2000000 in
/-- The reference's result stage is the network over the host's dense products. -/
theorem ref_is_net (x0 : (⟨S200000x11, .f32⟩ : BufTy).Contents (Elt F)) (x1 : (⟨S2x6400000, .i32⟩ : BufTy).Contents (Elt F))
    (x2 : (⟨S11x11, .f32⟩ : BufTy).Contents (Elt F)) (x3 : (⟨S11, .f32⟩ : BufTy).Contents (Elt F))
    (x4 : (⟨S11x11, .f32⟩ : BufTy).Contents (Elt F)) (x5 : (⟨S11, .f32⟩ : BufTy).Contents (Elt F))
    (x6 : (⟨S11x16, .f32⟩ : BufTy).Contents (Elt F)) (x7 : (⟨S16, .f32⟩ : BufTy).Contents (Elt F)) :
    val_main_v137 (F := F) x0 x1 x2 x3 x4 x5 x6 x7
      = Cert.Gcn.net hostLin11 hostLin11 hostLin16 x0 x1 x2 x3 x4 x5 x6 x7 := rfl

/-- At ideal values the host's dense products are the dense product of `LibDense.lean`. -/
theorem hostLin11_eq : hostLin11 (F := Ideal) = dense 200000 11 11 :=
  funext fun l => funext fun r => hostDot_eq none l r

theorem hostLin16_eq : hostLin16 (F := Ideal) = dense 200000 11 16 :=
  funext fun l => funext fun r => hostDot_eq none l r

/-- The reference's result, named by its run, is the network over the dense product of the argument arrays. -/
theorem result (m : (ℓ : Loc nD τ sig) → Buf (Elt Ideal) ℓ) (c : Dev nD) :
    Cert.ReferenceIdeal.Value.res_main_v137 m c
      = Cert.Gcn.net (dense 200000 11 11) (dense 200000 11 11) (dense 200000 11 16)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [val_main_v137_eq, ref_is_net, hostLin11_eq, hostLin16_eq]

end Cert.Gcn.Ref

end
-- ==== Proof.lean ====
/-
  A three-layer graph convolution network over 200000 nodes and 6400000 edges. Each layer is a dense product x·W of the
  node features with the layer's weight, then the normalised aggregation over the edges with a self loop,
     out(i, f) = Σ over the edges j → i of dv(j)·dv(i)·(x·W)(j, f) + dv(i)²·(x·W)(i, f) + b(f),   dv = rsqrt(1 + in-degree),
  and a relu after the first two layers. The kernel program computes the three dense products in pallas_calls — 100 grid
  points each, a block of 2000 rows per point, the operands narrowed to bf16 for the matrix unit and accumulated in f32 —
  and everything else on the host; the reference computes everything on the host, the dense products by `dot_general`.

  Over the extended reals a change of float format is the identity and both products are the same sum over the 11
  contracted coordinates, term for term (`LibDense.lean`); the rows of a product depend on the same rows of the left
  operand only, so the 100 row blocks a region writes tile the whole product (`Region0/1/2.lean`). Everything around
  the products is the same operations in the same order in both programs and is carried as one function of the products
  (`Spec.lean`: `Cert.Gcn.net`), never opened: the kernel's result buffer holds `net` over the dense product
  (`KernelRun.lean`, `Stretches.lean`, `KernelValue.lean`) and so does the reference's (`RefNet.lean`). No law of
  arithmetic beyond that identification is needed, so the precondition (finite inputs) is not used.

  The ideal pass rewrote nothing, so the kernel's idealization claim is trivial; the three frames are the generated
  frame certificates and the reference's generated run.
-/
import proofs.«142352_j18940805775457_1_alg».proof.Defs
import proofs.«142352_j18940805775457_1_alg».proof.Proof.Gen.Kernel
import proofs.«142352_j18940805775457_1_alg».proof.Proof.Gen.Kernel.Frame
import proofs.«142352_j18940805775457_1_alg».proof.Proof.Gen.KernelIdeal
import proofs.«142352_j18940805775457_1_alg».proof.Proof.Gen.KernelIdeal.Frame
import proofs.«142352_j18940805775457_1_alg».proof.Proof.Gen.ReferenceIdeal
import proofs.«142352_j18940805775457_1_alg».proof.Proof.Gen.ReferenceIdeal.Run
import proofs.«142352_j18940805775457_1_alg».proof.Proof.Gen.ReferenceIdeal.Read
import proofs.«142352_j18940805775457_1_alg».proof.Proof.Gen.Pre_finite_inputs
import proofs.«142352_j18940805775457_1_alg».proof.Proof.KernelRun
import proofs.«142352_j18940805775457_1_alg».proof.Proof.KernelValue
import proofs.«142352_j18940805775457_1_alg».proof.Proof.RefNet

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network over the dense product of the (agreeing) argument arrays in their result
    buffer. -/
theorem algebraic : Cert.algebraic_KernelIdeal_ReferenceIdeal := by
  intro m ρ m' ρ' _ hagree
  refine ⟨fun c => Cert.Gcn.net (Cert.Lib.Dense.dense 200000 11 11) (Cert.Lib.Dense.dense 200000 11 11) (Cert.Lib.Dense.dense 200000 11 16)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Gcn.KernelValue.result m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.Gcn.Ref.result m' c, (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
